-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x65536 : Shape := ⟨2, ![2048, 65536]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x65536 : S_.BroadcastsInDim S2048x65536 (![] : Fin 0 → Fin S2048x65536.rank)
  reducesTo_S2048x65536_S_d0_1 : S2048x65536.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S128x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2048x64 .f32) (main_arg1 : FVec F S2048x65536 .f32) (main_arg2 : FVec F S2048x65536 .f32) (main_arg3 : FVec F S128x64 .f32) (main_arg4 : FVec F S64 .f32) (main_arg5 : FVec F S128x1 .f32) (main_arg6 : FVec F S1 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x65536 .f32 := Host.absf main_arg1
  let main_cst_0 : FVec F S_ .f32 := constant S_ .f32 0x7F800000#32
  let main_v5 : FVec F S2048x65536 .f32 := broadcastInDim S2048x65536 ![] bcast_S_S2048x65536 main_cst_0
  let main_v6 : IVec S2048x65536 1 := cmpf .olt main_v4 main_v5
  let main_c_1 : IVec S_ 1 := constantI S_ 1 1#1
  let main_v7 : IVec S_ 1 := (fun x v => Host.reduce IntOp.andi x v reducesTo_S2048x65536_S_d0_1 h_S_) main_v6 main_c_1
  let main_v8 : IVec S_ 1 := andi main_v3 main_v7
  let main_v9 : FVec F S2048x65536 .f32 := Host.absf main_arg2
  let main_cst_2 : FVec F S_ .f32 := constant S_ .f32 0x7F800000#32
  let main_v10 : FVec F S2048x65536 .f32 := broadcastInDim S2048x65536 ![] bcast_S_S2048x65536 main_cst_2
  let main_v11 : IVec S2048x65536 1 := cmpf .olt main_v9 main_v10
  let main_c_3 : IVec S_ 1 := constantI S_ 1 1#1
  let main_v12 : IVec S_ 1 := (fun x v => Host.reduce IntOp.andi x v reducesTo_S2048x65536_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S2048x64 : Shape := ⟨2, ![2048, 64]⟩
abbrev S2048x65536 : Shape := ⟨2, ![2048, 65536]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x64 : Shape := ⟨2, ![64, 64]⟩
abbrev S64x1 : Shape := ⟨2, ![64, 1]⟩
abbrev S1x64 : Shape := ⟨2, ![1, 64]⟩
abbrev S1x1 : Shape := ⟨2, ![1, 1]⟩
abbrev S65536x64 : Shape := ⟨2, ![65536, 64]⟩
abbrev S65536x1 : Shape := ⟨2, ![65536, 1]⟩
abbrev S2048x512 : Shape := ⟨2, ![2048, 512]⟩
abbrev S512x64 : Shape := ⟨2, ![512, 64]⟩
abbrev S512x1 : Shape := ⟨2, ![512, 1]⟩
abbrev S_ : Shape := ⟨0, ![]⟩
abbrev S2x2048x1 : Shape := ⟨3, ![2, 2048, 1]⟩
abbrev S2048x1024 : Shape := ⟨2, ![2048, 1024]⟩
abbrev S1024x1 : Shape := ⟨2, ![1024, 1]⟩
abbrev S1x2048x1 : Shape := ⟨3, ![1, 2048, 1]⟩
abbrev S2048x1 : Shape := ⟨2, ![2048, 1]⟩
abbrev S2x2048x64 : Shape := ⟨3, ![2, 2048, 64]⟩
abbrev S1024x64 : Shape := ⟨2, ![1024, 64]⟩
abbrev S1x2048x64 : Shape := ⟨3, ![1, 2048, 64]⟩

abbrev nBuf : Space → Nat
  | .hbm => 28
  | .vmem => 34
  | .smem => 0
  | _ => 0

abbrev bufTy : (tb : Table) → Fin (tcTables nBuf tb) → BufTy
  | .hbm, ⟨0, _⟩ => ⟨S2048x64, .f32⟩
  | .hbm, ⟨1, _⟩ => ⟨S2048x65536, .f32⟩
  | .hbm, ⟨2, _⟩ => ⟨S2048x65536, .f32⟩
  | .hbm, ⟨3, _⟩ => ⟨S128x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S64x64, .f32⟩
  | .hbm, ⟨8, _⟩ => ⟨S64x64, .f32⟩
  | .hbm, ⟨9, _⟩ => ⟨S64x1, .f32⟩
  | .hbm, ⟨10, _⟩ => ⟨S64x1, .f32⟩
  | .hbm, ⟨11, _⟩ => ⟨S1x64, .f32⟩
  | .hbm, ⟨12, _⟩ => ⟨S1x1, .f32⟩
  | .hbm, ⟨13, _⟩ => ⟨S65536x64, .bf16⟩
  | .hbm, ⟨14, _⟩ => ⟨S65536x1, .f32⟩
  | .hbm, ⟨15, _⟩ => ⟨S2048x65536, .bf16⟩
  | .hbm, ⟨16, _⟩ => ⟨S_, .f32⟩
  | .hbm, ⟨17, _⟩ => ⟨S1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .f32⟩
  | .hbm, ⟨22, _⟩ => ⟨S2x2048x1, .f32⟩
  | .hbm, ⟨23, _⟩ => ⟨S_, .f32⟩
  | .hbm, ⟨24, _⟩ => ⟨S2048x1, .f32⟩
  | .hbm, ⟨25, _⟩ => ⟨S2x2048x64, .f32⟩
  | .hbm, ⟨26, _⟩ => ⟨S_, .f32⟩
  | .hbm, ⟨27, _⟩ => ⟨S2048x64, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x64, .f32⟩
  | .local _ .vmem, ⟨5, _⟩ => ⟨S64x64, .f32⟩
  | .local _ .vmem, ⟨6, _⟩ => ⟨S64x64, .f32⟩
  | .local _ .vmem, ⟨7, _⟩ => ⟨S64x1, .f32⟩
  | .local _ .vmem, ⟨8, _⟩ => ⟨S64x1, .f32⟩
  | .local _ .vmem, ⟨9, _⟩ => ⟨S1x64, .f32⟩
  | .local _ .vmem, ⟨10, _⟩ => ⟨S1x1, .f32⟩
  | .local _ .vmem, ⟨11, _⟩ => ⟨S512x64, .bf16⟩
  | .local _ .vmem, ⟨12, _⟩ => ⟨S512x64, .bf16⟩
  | .local _ .vmem, ⟨13, _⟩ => ⟨S512x1, .f32⟩
  | .local _ .vmem, ⟨14, _⟩ => ⟨S512x1, .f32⟩
  | .local _ .vmem, ⟨15, _⟩ => ⟨S2048x512, .bf16⟩
  | .local _ .vmem, ⟨16, _⟩ => ⟨S2048x512, .bf16⟩
  | .local _ .vmem, ⟨17, _⟩ => ⟨S2048x1024, .bf16⟩
  | .local _ .vmem, ⟨18, _⟩ => ⟨S2048x1024, .bf16⟩
  | .local _ .vmem, ⟨19, _⟩ => ⟨S1024x1, .f32⟩
  | .local _ .vmem, ⟨20, _⟩ => ⟨S1024x1, .f32⟩
  | .local _ .vmem, ⟨21, _⟩ => ⟨S1x1, .f32⟩
  | .local _ .vmem, ⟨22, _⟩ => ⟨S1x2048x1, .f32⟩
  | .local _ .vmem, ⟨23, _⟩ => ⟨S1x2048x1, .f32⟩
  | .local _ .vmem, ⟨24, _⟩ => ⟨S2048x1024, .bf16⟩
  | .local _ .vmem, ⟨25, _⟩ => ⟨S2048x1024, .bf16⟩
  | .local _ .vmem, ⟨26, _⟩ => ⟨S1024x1, .f32⟩
  | .local _ .vmem, ⟨27, _⟩ => ⟨S1024x1, .f32⟩
  | .local _ .vmem, ⟨28, _⟩ => ⟨S1024x64, .bf16⟩
  | .local _ .vmem, ⟨29, _⟩ => ⟨S1024x64, .bf16⟩
  | .local _ .vmem, ⟨30, _⟩ => ⟨S2048x1, .f32⟩
  | .local _ .vmem, ⟨31, _⟩ => ⟨S1x1, .f32⟩
  | .local _ .vmem, ⟨32, _⟩ => ⟨S1x2048x64, .f32⟩
  | .local _ .vmem, ⟨33, _⟩ => ⟨S1x2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 32], ![false, false]⟩

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S2048x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  slices_S128x64_S64x64_0_0 : S128x64.Slices ![0, 0] S64x64
  slices_S128x64_S64x64_64_0 : S128x64.Slices ![64, 0] S64x64
  slices_S128x1_S64x1_0_0 : S128x1.Slices ![0, 0] S64x1
  slices_S128x1_S64x1_64_0 : S128x1.Slices ![64, 0] S64x1
  shapeCasts_S64_S1x64 : S64.ShapeCasts S1x64
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  reducesTo_S65536x1_S1_d0 : S65536x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1x1_S1024x1 : S1x1.Broadcasts S1024x1
  reducesTo_S2x2048x1_S2048x1_d0 : S2x2048x1.ReducesTo [0] S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1024x1_S1024x64 : S1024x1.Broadcasts S1024x64
  reducesTo_S2x2048x64_S2048x64_d0 : S2x2048x64.ReducesTo [0] S2048x64
  dot_S2048x512_S2048x64_S512x64_0_0_1_1_n_n_wf : DotDims.WF S2048x512 S2048x64 S512x64 [0] [0] [1] [1] [] []
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  dot_S2048x1024_S1024x1_S2048x1_1_0_0_1_n_n_wf : DotDims.WF S2048x1024 S1024x1 S2048x1 [1] [0] [0] [1] [] []
  dot_S2048x1024_S2048x1_S1024x1_0_0_1_1_n_n_wf : DotDims.WF S2048x1024 S2048x1 S1024x1 [0] [0] [1] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x65536.size a
  hwx0_0 : ∀ i : grid0.Coords, EltTy.bits .f32 = 32 ∨ (Rect.block (s := S2048x65536) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x65536.size a
  hwx0_1 : ∀ i : grid0.Coords, EltTy.bits .f32 = 32 ∨ (Rect.block (s := S2048x65536) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S65536x64.size a
  hwx0_9 : ∀ i : grid0.Coords, EltTy.bits .bf16 = 32 ∨ (Rect.block (s := S65536x64) S512x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S65536x1.size a
  hwx0_10 : ∀ i : grid0.Coords, EltTy.bits .f32 = 32 ∨ (Rect.block (s := S65536x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x512.size a ≤ S2048x65536.size a
  hwx0_11 : ∀ i : grid0.Coords, EltTy.bits .bf16 = 32 ∨ (Rect.block (s := S2048x65536) S2048x512.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x65536.size a
  hwx1_0 : ∀ i : grid1.Coords, EltTy.bits .bf16 = 32 ∨ (Rect.block (s := S2048x65536) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S65536x1.size a
  hwx1_1 : ∀ i : grid1.Coords, EltTy.bits .f32 = 32 ∨ (Rect.block (s := S65536x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1.size a ≤ S2x2048x1.size a
  hwx1_3 : ∀ i : grid1.Coords, EltTy.bits .f32 = 32 ∨ (Rect.block (s := S2x2048x1) S1x2048x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S2048x65536.size a
  hwx2_0 : ∀ i : grid2.Coords, EltTy.bits .bf16 = 32 ∨ (Rect.block (s := S2048x65536) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S65536x1.size a
  hwx2_1 : ∀ i : grid2.Coords, EltTy.bits .f32 = 32 ∨ (Rect.block (s := S65536x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S65536x64.size a
  hwx2_2 : ∀ i : grid2.Coords, EltTy.bits .bf16 = 32 ∨ (Rect.block (s := S65536x64) S1024x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S2048x1.size a
  hwx2_3 : ∀ i : grid2.Coords, EltTy.bits .f32 = 32 ∨ (Rect.block (s := S2048x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x64.size a ≤ S2x2048x64.size a
  hwx2_5 : ∀ i : grid2.Coords, EltTy.bits .f32 = 32 ∨ (Rect.block (s := S2x2048x64) S1x2048x64.size (cc2_transform_5 i) (hinb2_5 i)).WholeWords (EltTy.packing .f32)

variable [Facts₀]

def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf
def dot_S2048x1024_S2048x1_S1024x1_0_0_1_1_n_n : DotDims S2048x1024 S2048x1 S1024x1 where
  lhsContracting := [0]
  rhsContracting := [0]
  lhsNonContracting := [1]
  rhsNonContracting := [1]
  lhsBatch := []
  rhsBatch := []
  wf := dot_S2048x1024_S2048x1_S1024x1_0_0_1_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S512x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S2048x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v6_2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6_2) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2048x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2048x64 : Shape := ⟨2, ![2048, 64]⟩
abbrev S2048x65536 : Shape := ⟨2, ![2048, 65536]⟩
abbrev S128x64 : Shape := ⟨2, ![128, 64]⟩
abbrev S64 : Shape := ⟨1, ![64]⟩
abbrev S128x1 : Shape := ⟨2, ![128, 1]⟩
abbrev S1 : Shape := ⟨1, ![1]⟩
abbrev S65536x2048 : Shape := ⟨2, ![65536, 2048]⟩
abbrev S65536x64 : Shape := ⟨2, ![65536, 64]⟩
abbrev S65536x128 : Shape := ⟨2, ![65536, 128]⟩
abbrev S1x64 : Shape := ⟨2, ![1, 64]⟩
abbrev S_ : Shape := ⟨0, ![]⟩
abbrev S65536x1 : Shape := ⟨2, ![65536, 1]⟩
abbrev S1x1 : Shape := ⟨2, ![1, 1]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x65536, .f32⟩
  | .hbm, ⟨2, _⟩ => ⟨S2048x65536, .f32⟩
  | .hbm, ⟨3, _⟩ => ⟨S128x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S65536x2048, .f32⟩
  | .hbm, ⟨8, _⟩ => ⟨S65536x64, .f32⟩
  | .hbm, ⟨9, _⟩ => ⟨S65536x2048, .f32⟩
  | .hbm, ⟨10, _⟩ => ⟨S65536x64, .f32⟩
  | .hbm, ⟨11, _⟩ => ⟨S65536x128, .f32⟩
  | .hbm, ⟨12, _⟩ => ⟨S65536x64, .f32⟩
  | .hbm, ⟨13, _⟩ => ⟨S1x64, .f32⟩
  | .hbm, ⟨14, _⟩ => ⟨S65536x64, .f32⟩
  | .hbm, ⟨15, _⟩ => ⟨S65536x64, .f32⟩
  | .hbm, ⟨16, _⟩ => ⟨S_, .f32⟩
  | .hbm, ⟨17, _⟩ => ⟨S65536x64, .f32⟩
  | .hbm, ⟨18, _⟩ => ⟨S65536x64, .f32⟩
  | .hbm, ⟨19, _⟩ => ⟨S65536x1, .f32⟩
  | .hbm, ⟨20, _⟩ => ⟨S1x1, .f32⟩
  | .hbm, ⟨21, _⟩ => ⟨S65536x1, .f32⟩
  | .hbm, ⟨22, _⟩ => ⟨S65536x1, .f32⟩
  | .hbm, ⟨23, _⟩ => ⟨S_, .f32⟩
  | .hbm, ⟨24, _⟩ => ⟨S1, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S1x1, .f32⟩
  | .hbm, ⟨29, _⟩ => ⟨S65536x1, .f32⟩
  | .hbm, ⟨30, _⟩ => ⟨S65536x1, .f32⟩
  | .hbm, ⟨31, _⟩ => ⟨S65536x1, .f32⟩
  | .hbm, ⟨32, _⟩ => ⟨S2048x1, .f32⟩
  | .hbm, ⟨33, _⟩ => ⟨S65536x2048, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x64, .f32⟩
  | .hbm, ⟨40, _⟩ => ⟨S65536x64, .f32⟩
  | .hbm, ⟨41, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  transposes_S2048x65536_S65536x2048_1_0 : S2048x65536.Transposes [1, 0] S65536x2048
  concatenates_S65536x64_S65536x64_S65536x128_d1 : Shape.Concatenates [S65536x64, S65536x64] S65536x128 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S1_d0 : S65536x1.ReducesTo [0] S1
  h_S_ : 0 < S_.numel
  bcast_S_S1x1 : S_.BroadcastsInDim S1x1 (![] : Fin 0 → Fin S1x1.rank)
  bcast_S_S65536x1 : S_.BroadcastsInDim S65536x1 (![] : Fin 0 → Fin S65536x1.rank)
  bcast_S65536x1_S65536x64_0_1 : S65536x1.BroadcastsInDim S65536x64 (![0, 1] : Fin 2 → Fin S65536x64.rank)
  dot_S65536x2048_S2048x64_S65536x64_1_0_0_1_n_n_wf : DotDims.WF S65536x2048 S2048x64 S65536x64 [1] [0] [0] [1] [] []
  dot_S65536x128_S128x64_S65536x64_1_0_0_1_n_n_wf : DotDims.WF S65536x128 S128x64 S65536x64 [1] [0] [0] [1] [] []
  dot_S65536x128_S128x1_S65536x1_1_0_0_1_n_n_wf : DotDims.WF S65536x128 S128x1 S65536x1 [1] [0] [0] [1] [] []
  dot_S2048x65536_S65536x1_S2048x1_1_0_0_1_n_n_wf : DotDims.WF S2048x65536 S65536x1 S2048x1 [1] [0] [0] [1] [] []
  dot_S65536x2048_S2048x1_S65536x1_1_0_0_1_n_n_wf : DotDims.WF S65536x2048 S2048x1 S65536x1 [1] [0] [0] [1] [] []
  dot_S2048x65536_S65536x64_S2048x64_1_0_0_1_n_n_wf : DotDims.WF S2048x65536 S65536x64 S2048x64 [1] [0] [0] [1] [] []

variable [Facts₀]

def dot_S65536x2048_S2048x64_S65536x64_1_0_0_1_n_n : DotDims S65536x2048 S2048x64 S65536x64 where
  lhsContracting := [1]
  rhsContracting := [0]
  lhsNonContracting := [0]
  rhsNonContracting := [1]
  lhsBatch := []
  rhsBatch := []
  wf := dot_S65536x2048_S2048x64_S65536x64_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf
def dot_S2048x65536_S65536x1_S2048x1_1_0_0_1_n_n : DotDims S2048x65536 S65536x1 S2048x1 where
  lhsContracting := [1]
  rhsContracting := [0]
  lhsNonContracting := [0]
  rhsNonContracting := [1]
  lhsBatch := []
  rhsBatch := []
  wf := dot_S2048x65536_S65536x1_S2048x1_1_0_0_1_n_n_wf
def dot_S65536x2048_S2048x1_S65536x1_1_0_0_1_n_n : DotDims S65536x2048 S2048x1 S65536x1 where
  lhsContracting := [1]
  rhsContracting := [0]
  lhsNonContracting := [0]
  rhsNonContracting := [1]
  lhsBatch := []
  rhsBatch := []
  wf := dot_S65536x2048_S2048x1_S65536x1_1_0_0_1_n_n_wf
def dot_S2048x65536_S65536x64_S2048x64_1_0_0_1_n_n : DotDims S2048x65536 S65536x64 S2048x64 where
  lhsContracting := [1]
  rhsContracting := [0]
  lhsNonContracting := [0]
  rhsNonContracting := [1]
  lhsBatch := []
  rhsBatch := []
  wf := dot_S2048x65536_S65536x64_S2048x64_1_0_0_1_n_n_wf

class Facts : Prop extends Facts₀ where

variable [Facts]
-- ==== Proof.RunResult.lean ====
/-
  The idealized kernel's run, with its result kept: every weakly fair execution of the whole program — three
  kernel regions among four stretches of host operations — terminates without a fault, every unscoped buffer ends at
  the contents the run's last boundary names, and so the result array ends at that boundary's contents of its buffer
  while the seven argument arrays end as launched. The boundary contents are a fold through the program: a host
  stretch applies its operations, a region leaves each of its arrays at what its write-backs assemble.
-/
import proofs.«104795_j36816459661559_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-region run theorem's implicit arguments are found by unifying its conclusion with this statement,
-- which takes unfolding plain definitions in a metavariable's type
set_option backward.isDefEq.respectTransparency.types false in
/-- The run with the result named: the result array ends at the last boundary's contents of its buffer, the
    arguments as launched. -/
theorem run_result : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Val

end
-- ==== Proof.Spec.lean ====
/-
  The attention layer as ONE function of its seven argument arrays, over the extended reals, index by index.

  Nodes n < 2048, edges e < 65536, features d, o < 64. `src` and `tgt` are node-by-edge incidence arrays.
    feat inc x e d = Σₙ inc[n,e] · x[n,d]                     the features an edge gathers through an incidence array
    msg  e o = max (Σₖ feat src e k · W_f[k,o] + Σₖ feat tgt e k · W_f[64+k,o] + b_f[o]) 0
    logit e  =      Σₖ feat src e k · W_w[k,0] + Σₖ feat tgt e k · W_w[64+k,0] + b_w[0]
    mean     = (Σₑ logit e) / 65536
    pexp e   = exp (logit e − mean)
    nsum n   = Σₑ tgt[n,e] · pexp e                            the per-node denominator
    den  e   = Σₙ tgt[n,e] · nsum n                            the denominator carried back to the edge
    att  e   = pexp e / (den e + ε)
    out n o  = Σₑ tgt[n,e] · (msg e o · att e)
  The 128 rows of W_f and W_w are read as a lower half (rows k) and an upper half (rows 64 + k): a sum over the
  128 columns of the concatenated features is the sum of the two half sums. The 65536 edges are read as 2 slabs of
  32 tiles of 1024 edges: a sum over all edges is the sum over slabs, tiles and the edges of a tile. Both laws need
  only that addition is commutative and associative, which it is on the extended reals with the infinities.
-/
import Idealize.ShloMosaic.Lib.ValueIdx
import Idealize.ShloMosaic.PureOps.Ideal.Laws

noncomputable section

open scoped BigOperators

namespace Cert.Gat

open Idealize.ShloMosaic Idealize.ShloMosaic.ValueIdx

/-- An array of extended reals with two axes. -/
abbrev A2 (a b : ℕ) : Type := (⟨2, ![a, b]⟩ : Shape).Idx → EReal
/-- An array of extended reals with one axis. -/
abbrev A1 (a : ℕ) : Type := (⟨1, ![a]⟩ : Shape).Idx → EReal
/-- An array of extended reals with three axes. -/
abbrev A3 (a b c : ℕ) : Type := (⟨3, ![a, b, c]⟩ : Shape).Idx → EReal

/-- A two-axis array read at row `i`, column `j`. -/
abbrev at2 {a b : ℕ} (X : A2 a b) (i : Fin a) (j : Fin b) : EReal := X (ix2 i j)
/-- A three-axis array read at `(i, j, k)`. -/
abbrev at3 {a b c : ℕ} (X : A3 a b c) (i : Fin a) (j : Fin b) (k : Fin c) : EReal := X (ix3 i j k)

/-- Row `k` of the lower half of a 128-row weight array. -/
abbrev lo (k : Fin 64) : Fin 128 := ⟨k.val, by have := k.isLt; omega⟩
/-- Row `64 + k`: row `k` of the upper half. -/
abbrev hi (k : Fin 64) : Fin 128 := ⟨64 + k.val, by have := k.isLt; omega⟩

/-- Edge `j` of tile `t` of slab `s`: 2 slabs of 32 tiles of 1024 edges. -/
abbrev edge (s : Fin 2) (t : Fin 32) (j : Fin 1024) : Fin 65536 :=
  ⟨(s.val * 32 + t.val) * 1024 + j.val, by have := s.isLt; have := t.isLt; have := j.isLt; omega⟩

/-- The smoothing constant of the attention weights, as the binary32 word both programs carry. -/
abbrev eps : EReal := Ideal.ofBits .f32 0x358637BD#32
/-- The number of edges, as the binary32 word both programs divide by. -/
abbrev cnt : EReal := Ideal.ofBits .f32 0x47800000#32

section
variable (x : A2 2048 64) (src tgt : A2 2048 65536) (wf : A2 128 64) (bf : A1 64) (ww : A2 128 1) (bw : A1 1)

/-- What edge `e` gathers of feature `d` through the incidence array `inc`. -/
def feat (inc : A2 2048 65536) (e : Fin 65536) (d : Fin 64) : EReal := ∑ n : Fin 2048, inc (ix2 n e) * x (ix2 n d)

/-- The message of edge `e`, feature `o`. -/
def msg (e : Fin 65536) (o : Fin 64) : EReal :=
  max ((∑ k : Fin 64, feat x src e k * wf (ix2 (lo k) o)) + (∑ k : Fin 64, feat x tgt e k * wf (ix2 (hi k) o)) + bf (ix1 o)) 0

/-- The attention logit of edge `e`. -/
def logit (e : Fin 65536) : EReal :=
  (∑ k : Fin 64, feat x src e k * ww (ix2 (lo k) 0)) + (∑ k : Fin 64, feat x tgt e k * ww (ix2 (hi k) 0)) + bw (ix1 0)

/-- The mean logit. -/
def mean : EReal := Ideal.div (∑ e : Fin 65536, logit x src tgt ww bw e) cnt

/-- The exponential of the centred logit. -/
def pexp (e : Fin 65536) : EReal := Ideal.exp (logit x src tgt ww bw e - mean x src tgt ww bw)

/-- The per-node sum of the exponentials of its incoming edges. -/
def nsum (n : Fin 2048) : EReal := ∑ e : Fin 65536, tgt (ix2 n e) * pexp x src tgt ww bw e

/-- That sum carried back to each edge through its target node. -/
def den (e : Fin 65536) : EReal := ∑ n : Fin 2048, tgt (ix2 n e) * nsum x src tgt ww bw n

/-- The attention weight of edge `e`. -/
def att (e : Fin 65536) : EReal := Ideal.div (pexp x src tgt ww bw e) (den x src tgt ww bw e + eps)

/-- The layer's output at node `n`, feature `o`. -/
def out (n : Fin 2048) (o : Fin 64) : EReal :=
  ∑ e : Fin 65536, tgt (ix2 n e) * (msg x src tgt wf bf e o * att x src tgt ww bw e)

end

end Cert.Gat

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Regroup.lean ====
/-
  The two re-indexing laws that join the kernel's arrangement of its sums to the reference's, in any additive
  commutative monoid (so in the extended reals, infinities included — only commutativity and associativity of
  addition are used):
    a sum over the 65536 edges is the sum over the 2 slabs, the 32 tiles of a slab and the 1024 edges of a tile;
    a sum over 128 weight rows is the sum over the lower 64 plus the sum over the upper 64.
-/
import proofs.«104795_j36816459661559_2_alg».proof.Proof.Spec
import proofs.«104795_j36816459661559_2_alg».proof.Proof.LibBlockSums

noncomputable section

open scoped BigOperators

namespace Cert.Gat

/-- Edges as slabs of tiles: `edge s t j` runs through every edge exactly once. -/
theorem sum_edges {M : Type*} [AddCommMonoid M] (f : Fin 65536 → M) :
    ∑ e : Fin 65536, f e = ∑ s : Fin 2, ∑ t : Fin 32, ∑ j : Fin 1024, f (edge s t j) := by
  have h1 : ∑ e : Fin 65536, f e = ∑ u : Fin 64, ∑ j : Fin 1024, f ⟨u.val * 1024 + j.val, Cert.BlockSums.blk_lt u j⟩ :=
    Cert.BlockSums.sum_blocks 64 1024 f
  have h2 : ∀ g : Fin 64 → M, ∑ u : Fin 64, g u = ∑ s : Fin 2, ∑ t : Fin 32, g ⟨s.val * 32 + t.val, Cert.BlockSums.blk_lt s t⟩ :=
    fun g => Cert.BlockSums.sum_blocks 2 32 g
  rw [h1, h2]

/-- The 128 rows as a lower and an upper half. -/
theorem sum_halves {M : Type*} [AddCommMonoid M] (g : Fin 128 → M) :
    ∑ k : Fin 128, g k = (∑ k : Fin 64, g (lo k)) + ∑ k : Fin 64, g (hi k) :=
  Fin.sum_univ_add (a := 64) (b := 64) g

end Cert.Gat

end
-- ==== Proof.RefValue.lean ====
/-
  The reference program's result, stage by stage, is the specification `Cert.Gat.out` of its seven arguments.
  Each stage of the reference is read at an index: a transpose swaps the coordinates, a contraction is a sum of
  products, a broadcast repeats a row or a scalar, the concatenation of the two gathered feature arrays along the
  columns puts the source features in columns 0–63 and the target features in columns 64–127 — so a contraction over the
  128 columns against a 128-row weight array is the sum of the lower-half and the upper-half contractions.
-/
import proofs.«104795_j36816459661559_2_alg».proof.Proof.Gen.ReferenceIdeal.Read
import proofs.«104795_j36816459661559_2_alg».proof.Proof.Spec
import proofs.«104795_j36816459661559_2_alg».proof.Proof.Regroup
import Idealize.ShloMosaic.Lib.Pipeline.Value

noncomputable section

open scoped BigOperators

namespace Cert.ReferenceIdeal.RefValue

open Cert.ReferenceIdeal Cert.ReferenceIdeal.Read Idealize.ShloMosaic Idealize.ShloMosaic.ValueIdx
open Cert.Gat

/-- two indices of a two-axis (one-axis) shape with the same coordinates are equal -/
local macro "idx2" : tactic => `(tactic| (funext a; match a with | ⟨0, _⟩ => rfl | ⟨1, _⟩ => rfl))
local macro "idx1" : tactic => `(tactic| (funext a; match a with | ⟨0, _⟩ => rfl))

variable (x0 : (⟨S2048x64, .f32⟩ : BufTy).Contents (Elt Ideal)) (x1 x2 : (⟨S2048x65536, .f32⟩ : BufTy).Contents (Elt Ideal))
  (x3 : (⟨S128x64, .f32⟩ : BufTy).Contents (Elt Ideal)) (x4 : (⟨S64, .f32⟩ : BufTy).Contents (Elt Ideal))
  (x5 : (⟨S128x1, .f32⟩ : BufTy).Contents (Elt Ideal)) (x6 : (⟨S1, .f32⟩ : BufTy).Contents (Elt Ideal))

/-- The source features an edge gathers: the transposed incidence array against the node features. -/
theorem feat_src (e : Fin 65536) (d : Fin 64) : val_main_v1 (F := Ideal) x0 x1 (ix2 e d) = feat x0 x1 e d := by
  rw [val_main_v1_apply]
  unfold feat
  refine Finset.sum_congr rfl fun n _ => ?_
  rw [val_main_v0_apply, show idx_main_v0 (lidx_main_v1 (ix2 e d) n) = ix2 n e from by idx2,
    show ridx_main_v1 (ix2 e d) n = ix2 n d from by idx2]

/-- The target features likewise. -/
theorem feat_tgt (e : Fin 65536) (d : Fin 64) : val_main_v3 (F := Ideal) x0 x2 (ix2 e d) = feat x0 x2 e d := by
  rw [val_main_v3_apply]
  unfold feat
  refine Finset.sum_congr rfl fun n _ => ?_
  rw [val_main_v2_apply, show idx_main_v2 (lidx_main_v3 (ix2 e d) n) = ix2 n e from by idx2,
    show ridx_main_v3 (ix2 e d) n = ix2 n d from by idx2]

/-- Columns 0–63 of the concatenated features are the source features. -/
theorem cat_lo (e : Fin 65536) (k : Fin 64) : val_main_v4 (F := Ideal) x0 x1 x2 (ix2 e (lo k)) = feat x0 x1 e k := by
  unfold val_main_v4
  rw [concatenate_pair_apply_left (1 : Fin S65536x128.rank) _ _ Facts₀.concatenates_S65536x64_S65536x64_S65536x128_d1
    (ix2 e (lo k)) rfl (ix2 e k) (fun b => by match b with | ⟨0, _⟩ => rfl | ⟨1, _⟩ => rfl)]
  exact feat_src x0 x1 e k

/-- Columns 64–127 are the target features. -/
theorem cat_hi (e : Fin 65536) (k : Fin 64) : val_main_v4 (F := Ideal) x0 x1 x2 (ix2 e (hi k)) = feat x0 x2 e k := by
  unfold val_main_v4
  rw [concatenate_pair_apply_right (1 : Fin S65536x128.rank) _ _ Facts₀.concatenates_S65536x64_S65536x64_S65536x128_d1
    (ix2 e (hi k)) rfl rfl (ix2 e k)
    (fun b hb => by match b with | ⟨0, _⟩ => rfl | ⟨1, _⟩ => exact absurd rfl hb)
    (by show k.val + 64 = 64 + k.val; omega)]
  exact feat_tgt x0 x2 e k

/-- The message before the bias and the maximum: the two half contractions against the 128 x 64 weights. -/
theorem lin_f (e : Fin 65536) (o : Fin 64) : val_main_v5 (F := Ideal) x0 x1 x2 x3 (ix2 e o)
    = (∑ k : Fin 64, feat x0 x1 e k * x3 (ix2 (lo k) o)) + ∑ k : Fin 64, feat x0 x2 e k * x3 (ix2 (hi k) o) := by
  rw [val_main_v5_apply, sum_halves]
  congr 1 <;> refine Finset.sum_congr rfl fun k _ => ?_
  · rw [show lidx_main_v5 (ix2 e o) (lo k) = ix2 e (lo k) from by idx2,
      show ridx_main_v5 (ix2 e o) (lo k) = ix2 (lo k) o from by idx2, cat_lo]
  · rw [show lidx_main_v5 (ix2 e o) (hi k) = ix2 e (hi k) from by idx2,
      show ridx_main_v5 (ix2 e o) (hi k) = ix2 (hi k) o from by idx2, cat_hi]

/-- The logit before its bias: the same against the 128 x 1 weights. -/
theorem lin_w (e : Fin 65536) : val_main_v10 (F := Ideal) x0 x1 x2 x5 (ix2 e 0)
    = (∑ k : Fin 64, feat x0 x1 e k * x5 (ix2 (lo k) 0)) + ∑ k : Fin 64, feat x0 x2 e k * x5 (ix2 (hi k) 0) := by
  rw [val_main_v10_apply, sum_halves]
  congr 1 <;> refine Finset.sum_congr rfl fun k _ => ?_
  · rw [show lidx_main_v10 (ix2 e 0) (lo k) = ix2 e (lo k) from by idx2,
      show ridx_main_v10 (ix2 e 0) (lo k) = ix2 (lo k) 0 from by idx2, cat_lo]
  · rw [show lidx_main_v10 (ix2 e 0) (hi k) = ix2 e (hi k) from by idx2,
      show ridx_main_v10 (ix2 e 0) (hi k) = ix2 (hi k) 0 from by idx2, cat_hi]

/-- The message. -/
theorem msg_eq (e : Fin 65536) (o : Fin 64) : val_main_v9 (F := Ideal) x0 x1 x2 x3 x4 (ix2 e o) = msg x0 x1 x2 x3 x4 e o := by
  rw [val_main_v9_apply, val_main_v8_apply, lin_f, val_main_v7_apply, val_main_v6_apply, val_main_call0_v0_apply,
    val_main_call0_cst_apply, show idx_main_v6 (idx_main_v7 (ix2 e o)) = ix1 o from by idx1]
  simp only [Ideal.maximumf_def, Ideal.addf_def, Ideal.ofBits_def, Ideal.ofBits_zero_f32]
  rfl

/-- The logit. -/
theorem logit_eq (e : Fin 65536) : val_main_v13 (F := Ideal) x0 x1 x2 x5 x6 (ix2 e 0) = logit x0 x1 x2 x5 x6 e := by
  rw [val_main_v13_apply, lin_w, val_main_v12_apply, val_main_v11_apply,
    show idx_main_v11 (idx_main_v12 (ix2 e 0)) = ix1 0 from by idx1]
  simp only [Ideal.addf_def]
  rfl

/-- The mean logit. -/
theorem mean_eq : val_main_v17 (F := Ideal) x0 x1 x2 x5 x6 (ix2 0 0) = mean x0 x1 x2 x5 x6 := by
  rw [val_main_v17_apply, val_main_v15_apply, val_main_v14_apply, val_main_cst_apply, val_main_v16_apply, val_main_cst_0_apply]
  simp only [Ideal.hostDivf_def, Ideal.ofBits_def, Ideal.ofBits_zero_f32, zero_add]
  unfold mean
  refine congrArg (fun z => Ideal.div z cnt) (Finset.sum_congr rfl fun e _ => ?_)
  rw [show idx_main_v14 (idx_main_v15 (ix2 0 0)) e = ix2 e 0 from by idx2]
  exact logit_eq x0 x1 x2 x5 x6 e

/-- The exponential of the centred logit. -/
theorem pexp_eq (e : Fin 65536) : val_main_v20 (F := Ideal) x0 x1 x2 x5 x6 (ix2 e 0) = pexp x0 x1 x2 x5 x6 e := by
  rw [val_main_v20_apply, val_main_v19_apply, logit_eq, val_main_v18_apply,
    show idx_main_v18 (ix2 e 0) = ix2 0 0 from by idx2, mean_eq]
  simp only [Ideal.hostUnary_exp_def, Ideal.subf_def]
  rfl

/-- The per-node sum. -/
theorem nsum_eq (n : Fin 2048) : val_main_v21 (F := Ideal) x0 x1 x2 x5 x6 (ix2 n 0) = nsum x0 x1 x2 x5 x6 n := by
  rw [val_main_v21_apply]
  unfold nsum
  refine Finset.sum_congr rfl fun e _ => ?_
  rw [show lidx_main_v21 (ix2 n 0) e = ix2 n e from by idx2, show ridx_main_v21 (ix2 n 0) e = ix2 e 0 from by idx2, pexp_eq]

/-- That sum carried back to the edges. -/
theorem den_eq (e : Fin 65536) : val_main_v23 (F := Ideal) x0 x1 x2 x5 x6 (ix2 e 0) = den x0 x1 x2 x5 x6 e := by
  rw [val_main_v23_apply]
  unfold den
  refine Finset.sum_congr rfl fun n _ => ?_
  rw [val_main_v22_apply, show idx_main_v22 (lidx_main_v23 (ix2 e 0) n) = ix2 n e from by idx2,
    show ridx_main_v23 (ix2 e 0) n = ix2 n 0 from by idx2, nsum_eq]

/-- The attention weight. -/
theorem att_eq (e : Fin 65536) : val_main_v26 (F := Ideal) x0 x1 x2 x5 x6 (ix2 e 0) = att x0 x1 x2 x5 x6 e := by
  rw [val_main_v26_apply, pexp_eq, val_main_v25_apply, den_eq, val_main_v24_apply, val_main_cst_1_apply]
  simp only [Ideal.hostDivf_def, Ideal.addf_def, Ideal.ofBits_def]
  rfl

/-- The reference's result is the specification. -/
theorem out_eq (n : Fin 2048) (o : Fin 64) :
    val_main_v29 (F := Ideal) x0 x1 x2 x3 x4 x5 x6 (ix2 n o) = out x0 x1 x2 x3 x4 x5 x6 n o := by
  rw [val_main_v29_apply]
  unfold out
  refine Finset.sum_congr rfl fun e _ => ?_
  rw [show lidx_main_v29 (ix2 n o) e = ix2 n e from by idx2, show ridx_main_v29 (ix2 n o) e = ix2 e o from by idx2,
    val_main_v28_apply, msg_eq, val_main_v27_apply, show idx_main_v27 (ix2 e o) = ix2 e 0 from by idx2, att_eq]
  simp only [Ideal.mulf_def]

end Cert.ReferenceIdeal.RefValue

end
-- ==== Proof.LibDotTN.lean ====
/-
  A matrix product that contracts the FIRST axis of both operands — a [K, M] operand against a [K, N] operand,
  giving [M, N], no batch axis: the product of the left operand's transpose with the right operand, taken without
  forming the transpose — read at the entry (p, c) over the extended reals: the sum over k of the left operand at
  (k, p) times the right operand at (k, c). Stated for the on-chip product accumulated into a zero splat, for any
  dimension record that is this one.
-/
import Idealize.ShloMosaic.Lib.ValueIdx
import Idealize.ShloMosaic.PureOps.Ideal.Laws

noncomputable section

open scoped BigOperators

namespace Cert.DotTN

open Idealize.ShloMosaic Idealize.ShloMosaic.ValueIdx

/-- The dimension record: both operands contracted on axis 0, their axes 1 kept, left before right. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The contraction index has one axis, of extent `K`. -/
theorem contr_rank : (tn K M N).contr.rank = 1 := rfl
theorem contr_size : (tn K M N).contr.size ⟨0, by rw [contr_rank]; exact Nat.one_pos⟩ = K := rfl

/-- The one-coordinate contraction index with coordinate `k`. -/
abbrev cidx (k : Fin K) : (tn K M N).contr.Idx := (contrEquiv1 (tn K M N) K contr_rank contr_size).symm k

/-- The left operand is read at row `k`, column `p`. -/
theorem lhsIdx_eq (p : Fin M) (c : Fin N) (k : Fin K) :
    (tn K M N).lhsIdx (ix2 p c) (cidx k) = ix2 k p := by
  funext a
  apply Fin.ext
  match a with
  | ⟨0, _⟩ =>
    exact ((tn K M N).lhsIdx_val_of_single rfl (ix2 p c) (cidx k)).trans
      (contrEquiv1_symm_val (tn K M N) K contr_rank contr_size k)
  | ⟨1, _⟩ => rfl

/-- The right operand is read at row `k`, column `c`. -/
theorem rhsIdx_eq (p : Fin M) (c : Fin N) (k : Fin K) :
    (tn K M N).rhsIdx (ix2 p c) (cidx k) = ix2 k c := by
  funext a
  apply Fin.ext
  match a with
  | ⟨0, _⟩ =>
    exact ((tn K M N).rhsIdx_val_of_single rfl (ix2 p c) (cidx k)).trans
      (contrEquiv1_symm_val (tn K M N) K contr_rank contr_size k)
  | ⟨1, _⟩ => rfl

/-- The contraction sum, re-indexed over `Fin K`. -/
theorem sum_eq (l : (⟨2, ![K, M]⟩ : Shape).Idx → EReal) (r : (⟨2, ![K, N]⟩ : Shape).Idx → EReal) (p : Fin M) (c : Fin N) :
    (∑ q : (tn K M N).contr.Idx, l ((tn K M N).lhsIdx (ix2 p c) q) * r ((tn K M N).rhsIdx (ix2 p c) q))
      = ∑ k : Fin K, l (ix2 k p) * r (ix2 k c) := by
  rw [← Equiv.sum_comp (contrEquiv1 (tn K M N) K contr_rank contr_size).symm]
  refine Finset.sum_congr rfl fun k _ => ?_
  rw [lhsIdx_eq p c k, rhsIdx_eq p c k]

/-- The on-chip product accumulated into the zero splat, at entry `(p, c)`: that sum. -/
theorem matmul_zero_apply {φ₁ φ₂ : FTy} (d : DotDims ⟨2, ![K, M]⟩ ⟨2, ![K, N]⟩ ⟨2, ![M, N]⟩) (hd : d = tn K M N)
    (prec : Option ContractPrecision) (l : FVec Ideal ⟨2, ![K, M]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 k p) * r (ix2 k c) := by
  subst hd
  rw [Ideal.matmul_constant_zero_apply]
  exact sum_eq l r p c

end Cert.DotTN

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Region0Pay.lean ====
/-
  Region 0's arithmetic read at an entry, over the extended reals.

  Each tile the body stores is a pure term of the tiles it loads. At an entry (r, o) of a tile:
    the copy of the target incidence tile is the tile itself;
    a gathered feature tile is  Σₙ inc[n, r] · x[n, d]  (the product contracting the node axis of both operands);
    the message tile is  max (Σₖ gsrc[r, k] · Wlo[k, o] + Σₖ gtgt[r, k] · Whi[k, o] + b[0, o]) 0;
    the logit tile is  Σₖ gsrc[r, k] · wlo[k, 0] + Σₖ gtgt[r, k] · whi[k, 0] + b[0, 0].
  A change of float format and a cast to the same shape are the identity at an entry.
-/
import proofs.«104795_j36816459661559_2_alg».proof.Proof.Gen.KernelIdeal.Skeleton
import proofs.«104795_j36816459661559_2_alg».proof.Proof.LibDotTN
import proofs.«104795_j36816459661559_2_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Idealize.ShloMosaic Idealize.ShloMosaic.ValueIdx

/-- The copy of the target incidence tile, at an entry: the tile's entry. -/
theorem copy_apply (v0 : Vec Ideal S2048x512 .f32) (n : Fin 2048) (r : Fin 512) :
    k0_pay2 (F := Ideal) v0 (ix2 n r) = v0 (ix2 n r) := rfl

/-- The features gathered through the source incidence tile, at (r, d): the sum over the nodes. -/
theorem gsrc_apply (v3 : Vec Ideal S2048x512 .f32) (v5 : Vec Ideal S2048x64 .f32) (r : Fin 512) (d : Fin 64) :
    k0_pay4 (F := Ideal) v3 v5 (ix2 r d) = ∑ n : Fin 2048, v3 (ix2 n r) * v5 (ix2 n d) := by
  unfold k0_pay4 k0_pay3
  exact Cert.DotTN.matmul_zero_apply dot_S2048x512_S2048x64_S512x64_0_0_1_1_n_n rfl none _ _ r d

/-- The features gathered through the target incidence tile, at (r, d): the sum over the nodes. -/
theorem gtgt_apply (v0 : Vec Ideal S2048x512 .f32) (v5 : Vec Ideal S2048x64 .f32) (r : Fin 512) (d : Fin 64) :
    k0_pay5 (F := Ideal) v0 v5 (ix2 r d) = ∑ n : Fin 2048, v0 (ix2 n r) * v5 (ix2 n d) := by
  unfold k0_pay5 k0_pay2 k0_pay3
  exact Cert.DotTN.matmul_zero_apply dot_S2048x512_S2048x64_S512x64_0_0_1_1_n_n rfl none _ _ r d

/-- The lower half of the logit weights as the body holds it, at an entry: the array's entry. -/
theorem wlo_apply (v17 : Vec Ideal S64x1 .f32) (k : Fin 64) (u : Fin 1) :
    k0_pay6 (F := Ideal) v17 (ix2 k u) = v17 (ix2 k u) := by
  unfold k0_pay6
  exact congrFun (shapeCast_self v17 shapeCasts_S64x1_S64x1) (ix2 k u)

/-- The upper half of the logit weights as the body holds it, at an entry: the array's entry. -/
theorem whi_apply (v20 : Vec Ideal S64x1 .f32) (k : Fin 64) (u : Fin 1) :
    k0_pay7 (F := Ideal) v20 (ix2 k u) = v20 (ix2 k u) := by
  unfold k0_pay7
  exact congrFun (shapeCast_self v20 shapeCasts_S64x1_S64x1) (ix2 k u)

/-- The logit tile at (r, 0), from the two gathered tiles and the two weight halves as the body holds them. -/
theorem logit_apply (v9 v10 : FVec Ideal S512x64 .bf16) (v19 v22 : FVec Ideal S64x1 .bf16) (v37 : Vec Ideal S1x1 .f32)
    (r : Fin 512) :
    k0_pay1 (F := Ideal) v9 v10 v19 v22 v37 (ix2 r (0 : Fin 1))
      = (∑ k : Fin 64, v9 (ix2 r k) * v19 (ix2 k (0 : Fin 1))) + (∑ k : Fin 64, v10 (ix2 r k) * v22 (ix2 k (0 : Fin 1)))
        + v37 (ix2 (0 : Fin 1) (0 : Fin 1)) := by
  unfold k0_pay1
  show FloatOps.matmul dot_S512x64_S64x1_S512x1_1_0_0_1_n_n none v9 v19 (constant (F := Ideal) S512x1 .f32 0x00000000#32) (ix2 r (0 : Fin 1))
      + FloatOps.matmul dot_S512x64_S64x1_S512x1_1_0_0_1_n_n none v10 v22 (constant (F := Ideal) S512x1 .f32 0x00000000#32) (ix2 r (0 : Fin 1))
      + broadcastTo S512x1 (shapeCast S1x1 v37 shapeCasts_S1x1_S1x1) broadcasts_S1x1_S512x1 (ix2 r (0 : Fin 1)) = _
  refine congrArg₂ (· + ·) (congrArg₂ (· + ·) ?_ ?_) ?_
  · exact Cert.PlainDot.matmul_zero_apply dot_S512x64_S64x1_S512x1_1_0_0_1_n_n rfl none v9 v19 r 0
  · exact Cert.PlainDot.matmul_zero_apply dot_S512x64_S64x1_S512x1_1_0_0_1_n_n rfl none v10 v22 r 0
  · refine (broadcastTo_1b_ab_apply _ broadcasts_S1x1_S512x1 r (0 : Fin 1)).trans ?_
    exact congrFun (shapeCast_self v37 shapeCasts_S1x1_S1x1) _

/-- The message tile at (r, o), from the three loaded tiles, the two weight halves and the bias row. -/
theorem message_apply (v0 v3 : Vec Ideal S2048x512 .f32) (v5 : Vec Ideal S2048x64 .f32) (v11 v14 : Vec Ideal S64x64 .f32)
    (v26 : Vec Ideal S1x64 .f32) (r : Fin 512) (o : Fin 64) :
    k0_pay8 (F := Ideal) v0 v3 v5 v11 v14 v26 (ix2 r o)
      = max ((∑ k : Fin 64, k0_pay4 (F := Ideal) v3 v5 (ix2 r k) * v11 (ix2 k o))
           + (∑ k : Fin 64, k0_pay5 (F := Ideal) v0 v5 (ix2 r k) * v14 (ix2 k o))
           + v26 (ix2 (0 : Fin 1) o)) 0 := by
  unfold k0_pay8
  show max (FloatOps.matmul dot_S512x64_S64x64_S512x64_1_0_0_1_n_n none (k0_pay4 (F := Ideal) v3 v5)
            (truncf .bf16 (shapeCast S64x64 v11 shapeCasts_S64x64_S64x64) bitsLt_bf16_f32) (constant (F := Ideal) S512x64 .f32 0x00000000#32) (ix2 r o)
          + FloatOps.matmul dot_S512x64_S64x64_S512x64_1_0_0_1_n_n none (k0_pay5 (F := Ideal) v0 v5)
            (truncf .bf16 (shapeCast S64x64 v14 shapeCasts_S64x64_S64x64) bitsLt_bf16_f32) (constant (F := Ideal) S512x64 .f32 0x00000000#32) (ix2 r o)
          + broadcastTo S512x64 (shapeCast S1x64 v26 shapeCasts_S1x64_S1x64) broadcasts_S1x64_S512x64 (ix2 r o))
        (Ideal.ofBits .f32 0x00000000#32) = _
  rw [Ideal.ofBits_zero_f32]
  refine congrArg (fun z => max z (0 : EReal)) (congrArg₂ (· + ·) (congrArg₂ (· + ·) ?_ ?_) ?_)
  · refine (Cert.PlainDot.matmul_zero_apply dot_S512x64_S64x64_S512x64_1_0_0_1_n_n rfl none _ _ r o).trans ?_
    refine Finset.sum_congr rfl fun k _ => congrArg (fun z => k0_pay4 (F := Ideal) v3 v5 (ix2 r k) * z) ?_
    exact congrFun (shapeCast_self v11 shapeCasts_S64x64_S64x64) (ix2 k o)
  · refine (Cert.PlainDot.matmul_zero_apply dot_S512x64_S64x64_S512x64_1_0_0_1_n_n rfl none _ _ r o).trans ?_
    refine Finset.sum_congr rfl fun k _ => congrArg (fun z => k0_pay5 (F := Ideal) v0 v5 (ix2 r k) * z) ?_
    exact congrFun (shapeCast_self v14 shapeCasts_S64x64_S64x64) (ix2 k o)
  · refine (broadcastTo_1b_ab_apply _ broadcasts_S1x64_S512x64 r o).trans ?_
    exact congrFun (shapeCast_self v26 shapeCasts_S1x64_S1x64) _

end Cert.KernelIdeal.Val

end
-- ==== Proof.Region0.lean ====
/-
  Region 0, from blocks to arrays.

  The region's grid has 128 points. At point t the two incidence windows hold columns 512·t … 512·t + 511 of their
  arrays, the seven small windows hold their whole arrays, and the three outputs are row block t of the message array,
  row block t of the logit column and column block t of the copy of the target incidence array. Edge e = 512·t + r.
  Each output array ends as ONE function of the arrays the region finds: every point writes back its block of that
  function, and the blocks cover the array.
-/
import proofs.«104795_j36816459661559_2_alg».proof.Proof.Gen.KernelIdeal.Frame
import proofs.«104795_j36816459661559_2_alg».proof.Proof.Spec
import proofs.«104795_j36816459661559_2_alg».proof.Proof.Region0Pay
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open Cert.Gat (feat edge eps at2 at3)

variable (V : (c : Dev nD) → (b : Ref sig .tc) → Buf (Elt Ideal) ((c : Thread nD τ).loc b))

theorem zero_offsets : (![0, 0] : Fin 2 → Nat) = fun _ => 0 := funext fun a => by fin_cases a <;> rfl

/-! ## Where each window's block sits at point t (decided once over the grid) -/

theorem idx_src : ∀ t : Fin cfg0.N, win0_0.index t (0 : Fin 2) = 0 ∧ win0_0.index t (1 : Fin 2) = t.val :=
  (by decide +kernel : ∀ t : Fin grid0.N, _)
theorem idx_tgt : ∀ t : Fin cfg0.N, win0_1.index t (0 : Fin 2) = 0 ∧ win0_1.index t (1 : Fin 2) = t.val :=
  (by decide +kernel : ∀ t : Fin grid0.N, _)
theorem idx_x : ∀ t : Fin cfg0.N, win0_2.index t (0 : Fin 2) = 0 ∧ win0_2.index t (1 : Fin 2) = 0 :=
  (by decide +kernel : ∀ t : Fin grid0.N, _)
theorem idx_copy : ∀ t : Fin cfg0.N, win0_11.index t (0 : Fin 2) = 0 ∧ win0_11.index t (1 : Fin 2) = t.val :=
  (by decide +kernel : ∀ t : Fin grid0.N, _)

theorem idx_wf_lo : ∀ t : Fin cfg0.N, win0_3.index t (0 : Fin 2) = 0 ∧ win0_3.index t (1 : Fin 2) = 0 :=
  (by decide +kernel : ∀ t : Fin grid0.N, _)
theorem idx_wf_hi : ∀ t : Fin cfg0.N, win0_4.index t (0 : Fin 2) = 0 ∧ win0_4.index t (1 : Fin 2) = 0 :=
  (by decide +kernel : ∀ t : Fin grid0.N, _)
theorem idx_ww_lo : ∀ t : Fin cfg0.N, win0_5.index t (0 : Fin 2) = 0 ∧ win0_5.index t (1 : Fin 2) = 0 :=
  (by decide +kernel : ∀ t : Fin grid0.N, _)
theorem idx_ww_hi : ∀ t : Fin cfg0.N, win0_6.index t (0 : Fin 2) = 0 ∧ win0_6.index t (1 : Fin 2) = 0 :=
  (by decide +kernel : ∀ t : Fin grid0.N, _)
theorem idx_bf : ∀ t : Fin cfg0.N, win0_7.index t (0 : Fin 2) = 0 ∧ win0_7.index t (1 : Fin 2) = 0 :=
  (by decide +kernel : ∀ t : Fin grid0.N, _)
theorem idx_bw : ∀ t : Fin cfg0.N, win0_8.index t (0 : Fin 2) = 0 ∧ win0_8.index t (1 : Fin 2) = 0 :=
  (by decide +kernel : ∀ t : Fin grid0.N, _)
theorem idx_msg : ∀ t : Fin cfg0.N, win0_9.index t (0 : Fin 2) = t.val ∧ win0_9.index t (1 : Fin 2) = 0 :=
  (by decide +kernel : ∀ t : Fin grid0.N, _)
theorem idx_logit : ∀ t : Fin cfg0.N, win0_10.index t (0 : Fin 2) = t.val ∧ win0_10.index t (1 : Fin 2) = 0 :=
  (by decide +kernel : ∀ t : Fin grid0.N, _)

/-! ## The input blocks at an entry -/

/-- The target incidence tile at point t, entry (n, r): the array at (n, 512·t + r). -/
theorem tgt_tile_apply (c : Dev nD) (t : Fin cfg0.N) (n : Fin 2048) (r : Fin 512) (e : Fin 65536)
    (he : e.val = t.val * 512 + r.val) :
    (iblk0 (F := Ideal) V c 1 t : Vec Ideal S2048x512 .f32) (ix2 n r) = at2 (V c main_arg2) n e := by
  obtain ⟨h0, h1⟩ := idx_tgt t
  show V c main_arg2 (((cfg0.win 1).blk t).view.emb (ix2 n r)) = V c main_arg2 (ix2 n e)
  refine congrArg (V c main_arg2) ?_
  funext a; apply Fin.ext
  match a with
  | ⟨0, _⟩ => show win0_1.index t (0 : Fin 2) * 2048 + 1 * n.val = n.val; omega
  | ⟨1, _⟩ => show win0_1.index t (1 : Fin 2) * 512 + 1 * r.val = e.val; omega

/-- The source incidence tile at point t, entry (n, r): the array at (n, 512·t + r). -/
theorem src_tile_apply (c : Dev nD) (t : Fin cfg0.N) (n : Fin 2048) (r : Fin 512) (e : Fin 65536)
    (he : e.val = t.val * 512 + r.val) :
    (iblk0 (F := Ideal) V c 0 t : Vec Ideal S2048x512 .f32) (ix2 n r) = at2 (V c main_arg1) n e := by
  obtain ⟨h0, h1⟩ := idx_src t
  show V c main_arg1 (((cfg0.win 0).blk t).view.emb (ix2 n r)) = V c main_arg1 (ix2 n e)
  refine congrArg (V c main_arg1) ?_
  funext a; apply Fin.ext
  match a with
  | ⟨0, _⟩ => show win0_0.index t (0 : Fin 2) * 2048 + 1 * n.val = n.val; omega
  | ⟨1, _⟩ => show win0_0.index t (1 : Fin 2) * 512 + 1 * r.val = e.val; omega

/-- The node feature window holds its whole array at every point. -/
theorem x_tile_apply (c : Dev nD) (t : Fin cfg0.N) (n : Fin 2048) (d : Fin 64) :
    (iblk0 (F := Ideal) V c 2 t : Vec Ideal S2048x64 .f32) (ix2 n d) = at2 (V c main_arg0) n d := by
  obtain ⟨h0, h1⟩ := idx_x t
  show V c main_arg0 (((cfg0.win 2).blk t).view.emb (ix2 n d)) = V c main_arg0 (ix2 n d)
  refine congrArg (V c main_arg0) ?_
  funext a; apply Fin.ext
  match a with
  | ⟨0, _⟩ => show win0_2.index t (0 : Fin 2) * 2048 + 1 * n.val = n.val; omega
  | ⟨1, _⟩ => show win0_2.index t (1 : Fin 2) * 64 + 1 * d.val = d.val; omega

/-- The lower half of the message weights: the whole array at every point. -/
theorem wf_lo_tile_apply (c : Dev nD) (t : Fin cfg0.N) (k o : Fin 64) :
    (iblk0 (F := Ideal) V c 3 t : Vec Ideal S64x64 .f32) (ix2 k o) = at2 (V c main_v0) k o := by
  obtain ⟨h0, h1⟩ := idx_wf_lo t
  show V c main_v0 (((cfg0.win 3).blk t).view.emb (ix2 k o)) = V c main_v0 (ix2 k o)
  refine congrArg (V c main_v0) ?_
  funext a; apply Fin.ext
  match a with
  | ⟨0, _⟩ => show win0_3.index t (0 : Fin 2) * 64 + 1 * k.val = k.val; omega
  | ⟨1, _⟩ => show win0_3.index t (1 : Fin 2) * 64 + 1 * o.val = o.val; omega

/-- The upper half of the message weights: the whole array at every point. -/
theorem wf_hi_tile_apply (c : Dev nD) (t : Fin cfg0.N) (k o : Fin 64) :
    (iblk0 (F := Ideal) V c 4 t : Vec Ideal S64x64 .f32) (ix2 k o) = at2 (V c main_v1) k o := by
  obtain ⟨h0, h1⟩ := idx_wf_hi t
  show V c main_v1 (((cfg0.win 4).blk t).view.emb (ix2 k o)) = V c main_v1 (ix2 k o)
  refine congrArg (V c main_v1) ?_
  funext a; apply Fin.ext
  match a with
  | ⟨0, _⟩ => show win0_4.index t (0 : Fin 2) * 64 + 1 * k.val = k.val; omega
  | ⟨1, _⟩ => show win0_4.index t (1 : Fin 2) * 64 + 1 * o.val = o.val; omega

/-- The lower half of the logit weights: the whole array at every point. -/
theorem ww_lo_tile_apply (c : Dev nD) (t : Fin cfg0.N) (k : Fin 64) (u : Fin 1) :
    (iblk0 (F := Ideal) V c 5 t : Vec Ideal S64x1 .f32) (ix2 k u) = at2 (V c main_v2) k u := by
  obtain ⟨h0, h1⟩ := idx_ww_lo t
  show V c main_v2 (((cfg0.win 5).blk t).view.emb (ix2 k u)) = V c main_v2 (ix2 k u)
  refine congrArg (V c main_v2) ?_
  funext a; apply Fin.ext
  match a with
  | ⟨0, _⟩ => show win0_5.index t (0 : Fin 2) * 64 + 1 * k.val = k.val; omega
  | ⟨1, _⟩ => show win0_5.index t (1 : Fin 2) * 1 + 1 * u.val = u.val; omega

/-- The upper half of the logit weights: the whole array at every point. -/
theorem ww_hi_tile_apply (c : Dev nD) (t : Fin cfg0.N) (k : Fin 64) (u : Fin 1) :
    (iblk0 (F := Ideal) V c 6 t : Vec Ideal S64x1 .f32) (ix2 k u) = at2 (V c main_v3) k u := by
  obtain ⟨h0, h1⟩ := idx_ww_hi t
  show V c main_v3 (((cfg0.win 6).blk t).view.emb (ix2 k u)) = V c main_v3 (ix2 k u)
  refine congrArg (V c main_v3) ?_
  funext a; apply Fin.ext
  match a with
  | ⟨0, _⟩ => show win0_6.index t (0 : Fin 2) * 64 + 1 * k.val = k.val; omega
  | ⟨1, _⟩ => show win0_6.index t (1 : Fin 2) * 1 + 1 * u.val = u.val; omega

/-- The message bias row: the whole array at every point. -/
theorem bf_tile_apply (c : Dev nD) (t : Fin cfg0.N) (u : Fin 1) (o : Fin 64) :
    (iblk0 (F := Ideal) V c 7 t : Vec Ideal S1x64 .f32) (ix2 u o) = at2 (V c main_v4) u o := by
  obtain ⟨h0, h1⟩ := idx_bf t
  show V c main_v4 (((cfg0.win 7).blk t).view.emb (ix2 u o)) = V c main_v4 (ix2 u o)
  refine congrArg (V c main_v4) ?_
  funext a; apply Fin.ext
  match a with
  | ⟨0, _⟩ => show win0_7.index t (0 : Fin 2) * 1 + 1 * u.val = u.val; omega
  | ⟨1, _⟩ => show win0_7.index t (1 : Fin 2) * 64 + 1 * o.val = o.val; omega

/-- The logit bias: the whole array at every point. -/
theorem bw_tile_apply (c : Dev nD) (t : Fin cfg0.N) (u v : Fin 1) :
    (iblk0 (F := Ideal) V c 8 t : Vec Ideal S1x1 .f32) (ix2 u v) = at2 (V c main_v5) u v := by
  obtain ⟨h0, h1⟩ := idx_bw t
  show V c main_v5 (((cfg0.win 8).blk t).view.emb (ix2 u v)) = V c main_v5 (ix2 u v)
  refine congrArg (V c main_v5) ?_
  funext a; apply Fin.ext
  match a with
  | ⟨0, _⟩ => show win0_8.index t (0 : Fin 2) * 1 + 1 * u.val = u.val; omega
  | ⟨1, _⟩ => show win0_8.index t (1 : Fin 2) * 1 + 1 * v.val = v.val; omega

/-! ## Output window 11: the copy of the target incidence array -/

/-- What point t writes back to window 11 is its block of the target incidence array. -/
theorem flushed_copy (c : Dev nD) (t : Fin cfg0.N) :
    (dat0 (F := Ideal) V c).flushed 11 t
      = ((cfg0.win 11).blk t).view.read (Elt Ideal) (fun i => V c main_arg2 i) := by
  show (cfg0.win 11).cut (grid0.coords t) ((dat0 (F := Ideal) V c).after 11 t) = _
  rw [after0_11]
  unfold out0_11
  rw [View.canon_unit_zero zero_offsets]
  simp only [View.ld_unit_zero (S := S2048x512) zero_offsets]
  obtain ⟨h0, h1⟩ := idx_copy t
  refine funext fun (j : S2048x512.Idx) => ?_
  obtain ⟨n, r, rfl⟩ : ∃ (n : Fin 2048) (r : Fin 512), j = ix2 n r := ⟨j 0, j 1, eq_ix2 j⟩
  show k0_pay2 (F := Ideal) (iblk0 (F := Ideal) V c 1 t) (ix2 n r) = V c main_arg2 (((cfg0.win 11).blk t).view.emb (ix2 n r))
  refine (copy_apply (iblk0 (F := Ideal) V c 1 t) n r).trans ?_
  refine (tgt_tile_apply V c t n r ⟨t.val * 512 + r.val, by have := t.isLt; have := r.isLt; have : cfg0.N = 128 := N_0; omega⟩ rfl).trans ?_
  refine congrArg (V c main_arg2) ?_
  funext a; apply Fin.ext
  match a with
  | ⟨0, _⟩ => show n.val = win0_11.index t (0 : Fin 2) * 2048 + 1 * n.val; omega
  | ⟨1, _⟩ => show t.val * 512 + r.val = win0_11.index t (1 : Fin 2) * 512 + 1 * r.val; omega

/-- An index of the array is in point t's block of window 11 iff each coordinate is in the block's range. -/
theorem mem_blk_copy (t : Fin cfg0.N) (i : S2048x65536.Idx) :
    i ∈ ((cfg0.win 11).blk t).view.set ↔ ∀ a : Fin 2, win0_11.index t a * S2048x512.size a ≤ (i a).val
      ∧ (i a).val < win0_11.index t a * S2048x512.size a + S2048x512.size a := by
  show i ∈ ((View.whole main_v6_2).slice (win0_11.rect t)).set ↔ _
  rw [View.set_slice_whole, Rect.mem_set_unit]
  exact Iff.rfl

/-- Every entry of the copy is in some point's block: column e is in block e / 512. -/
theorem cover_copy (i : S2048x65536.Idx) :
    ∃ t : Fin cfg0.N, (cfg0.win 11).flush t = true ∧ i ∈ ((cfg0.win 11).blk t).view.set := by
  have hi0 : (i 0).val < 2048 := (i 0).isLt
  have hi1 : (i 1).val < 65536 := (i 1).isLt
  have hN : cfg0.N = 128 := N_0
  obtain ⟨t, ht⟩ : ∃ t : Fin cfg0.N, t.val = (i 1).val / 512 := ⟨⟨(i 1).val / 512, by omega⟩, rfl⟩
  refine ⟨t, flush0_11 t, ?_⟩
  rw [mem_blk_copy]
  obtain ⟨h0, h1⟩ := idx_copy t
  intro a
  match a with
  | ⟨0, _⟩ =>
    show win0_11.index t (0 : Fin 2) * 2048 ≤ (i 0).val ∧ (i 0).val < win0_11.index t (0 : Fin 2) * 2048 + 2048
    omega
  | ⟨1, _⟩ =>
    show win0_11.index t (1 : Fin 2) * 512 ≤ (i 1).val ∧ (i 1).val < win0_11.index t (1 : Fin 2) * 512 + 512
    omega

/-- REGION 0, output window 11 (the copy of the target incidence array, 2048 x 65536). -/
theorem final0_t (c : Dev nD) (n : Fin 2048) (e : Fin 65536) :
    at2 ((dat0 (F := Ideal) V c).arrAt 11 cfg0.N) n e = at2 (V c main_arg2) n e := by
  have h := (dat0 (F := Ideal) V c).arrAt_eq_of_cover 11 (fun i => V c main_arg2 i)
    (fun t _ => flushed_copy V c t) cover_copy
  exact congrFun h (ix2 n e)

/-! ## Output window 10: the logit column -/

/-- The logit of edge e, as one function of the arrays the region finds. -/
def logitAt (c : Dev nD) (e : Fin 65536) : EReal :=
  (∑ k : Fin 64, feat (V c main_arg0) (V c main_arg1) e k * at2 (V c main_v2) k 0)
    + (∑ k : Fin 64, feat (V c main_arg0) (V c main_arg2) e k * at2 (V c main_v3) k 0)
    + at2 (V c main_v5) 0 0

/-- The logit tile at (r, 0), from the entries of the tiles the body loads. -/
theorem logit_tile (x0 x1 : Vec Ideal S2048x512 .f32) (x2 : Vec Ideal S2048x64 .f32) (x5 x6 : Vec Ideal S64x1 .f32)
    (x8 : Vec Ideal S1x1 .f32) (r : Fin 512) :
    k0_pay1 (F := Ideal) (k0_pay4 (F := Ideal) x0 x2) (k0_pay5 (F := Ideal) x1 x2) (k0_pay6 (F := Ideal) x5)
        (k0_pay7 (F := Ideal) x6) x8 (ix2 r (0 : Fin 1))
      = (∑ k : Fin 64, (∑ n : Fin 2048, x0 (ix2 n r) * x2 (ix2 n k)) * x5 (ix2 k (0 : Fin 1)))
        + (∑ k : Fin 64, (∑ n : Fin 2048, x1 (ix2 n r) * x2 (ix2 n k)) * x6 (ix2 k (0 : Fin 1)))
        + x8 (ix2 (0 : Fin 1) (0 : Fin 1)) := by
  refine (logit_apply (k0_pay4 (F := Ideal) x0 x2) (k0_pay5 (F := Ideal) x1 x2) (k0_pay6 (F := Ideal) x5)
    (k0_pay7 (F := Ideal) x6) x8 r).trans ?_
  refine congrArg₂ (· + ·) (congrArg₂ (· + ·) ?_ ?_) rfl
  · exact Finset.sum_congr rfl fun k _ => congrArg₂ (· * ·) (gsrc_apply x0 x2 r k) (wlo_apply x5 k 0)
  · exact Finset.sum_congr rfl fun k _ => congrArg₂ (· * ·) (gtgt_apply x1 x2 r k) (whi_apply x6 k 0)

/-- What point t writes back to window 10 is its block of the logit column. -/
theorem flushed_logit (c : Dev nD) (t : Fin cfg0.N) :
    (dat0 (F := Ideal) V c).flushed 10 t
      = ((cfg0.win 10).blk t).view.read (Elt Ideal) (fun (i : S65536x1.Idx) => logitAt V c (i 0)) := by
  show (cfg0.win 10).cut (grid0.coords t) ((dat0 (F := Ideal) V c).after 10 t) = _
  rw [after0_10]
  unfold out0_10
  rw [View.canon_unit_zero zero_offsets]
  simp only [View.ld_unit_zero (S := S2048x512) zero_offsets, View.ld_unit_zero (S := S2048x64) zero_offsets,
    View.ld_unit_zero (S := S64x1) zero_offsets, View.ld_unit_zero (S := S1x1) zero_offsets]
  obtain ⟨h0, h1⟩ := idx_logit t
  have hN : cfg0.N = 128 := N_0
  refine funext fun (j : S512x1.Idx) => ?_
  obtain ⟨r, u, rfl⟩ : ∃ (r : Fin 512) (u : Fin 1), j = ix2 r u := ⟨j 0, j 1, eq_ix2 j⟩
  obtain rfl : u = 0 := Subsingleton.elim _ _
  obtain ⟨e, he⟩ : ∃ e : Fin 65536, e.val = t.val * 512 + r.val :=
    ⟨⟨t.val * 512 + r.val, by have := t.isLt; have := r.isLt; omega⟩, rfl⟩
  show k0_pay1 (F := Ideal) (k0_pay4 (F := Ideal) (iblk0 (F := Ideal) V c 0 t) (iblk0 (F := Ideal) V c 2 t))
        (k0_pay5 (F := Ideal) (iblk0 (F := Ideal) V c 1 t) (iblk0 (F := Ideal) V c 2 t))
        (k0_pay6 (F := Ideal) (iblk0 (F := Ideal) V c 5 t)) (k0_pay7 (F := Ideal) (iblk0 (F := Ideal) V c 6 t))
        (iblk0 (F := Ideal) V c 8 t) (ix2 r (0 : Fin 1))
      = logitAt V c ((((cfg0.win 10).blk t).view.emb (ix2 r (0 : Fin 1))) 0)
  have hemb : (((cfg0.win 10).blk t).view.emb (ix2 r (0 : Fin 1))) 0 = e := Fin.ext (by
    show win0_10.index t (0 : Fin 2) * 512 + 1 * r.val = e.val; omega)
  refine Eq.trans ?_ (congrArg (logitAt V c) hemb.symm)
  refine (logit_tile (iblk0 (F := Ideal) V c 0 t) (iblk0 (F := Ideal) V c 1 t) (iblk0 (F := Ideal) V c 2 t)
    (iblk0 (F := Ideal) V c 5 t) (iblk0 (F := Ideal) V c 6 t) (iblk0 (F := Ideal) V c 8 t) r).trans ?_
  unfold logitAt feat
  refine congrArg₂ (· + ·) (congrArg₂ (· + ·) ?_ ?_) (bw_tile_apply V c t 0 0)
  · exact Finset.sum_congr rfl fun k _ => congrArg₂ (· * ·)
      (Finset.sum_congr rfl fun n _ => congrArg₂ (· * ·) (src_tile_apply V c t n r e he) (x_tile_apply V c t n k))
      (ww_lo_tile_apply V c t k 0)
  · exact Finset.sum_congr rfl fun k _ => congrArg₂ (· * ·)
      (Finset.sum_congr rfl fun n _ => congrArg₂ (· * ·) (tgt_tile_apply V c t n r e he) (x_tile_apply V c t n k))
      (ww_hi_tile_apply V c t k 0)

/-- An index of the array is in point t's block of window 10 iff each coordinate is in the block's range. -/
theorem mem_blk_logit (t : Fin cfg0.N) (i : S65536x1.Idx) :
    i ∈ ((cfg0.win 10).blk t).view.set ↔ ∀ a : Fin 2, win0_10.index t a * S512x1.size a ≤ (i a).val
      ∧ (i a).val < win0_10.index t a * S512x1.size a + S512x1.size a := by
  show i ∈ ((View.whole main_v6_1).slice (win0_10.rect t)).set ↔ _
  rw [View.set_slice_whole, Rect.mem_set_unit]
  exact Iff.rfl

/-- Every entry of the logit column is in some point's block: row e is in block e / 512. -/
theorem cover_logit (i : S65536x1.Idx) :
    ∃ t : Fin cfg0.N, (cfg0.win 10).flush t = true ∧ i ∈ ((cfg0.win 10).blk t).view.set := by
  have hi0 : (i 0).val < 65536 := (i 0).isLt
  have hi1 : (i 1).val < 1 := (i 1).isLt
  have hN : cfg0.N = 128 := N_0
  obtain ⟨t, ht⟩ : ∃ t : Fin cfg0.N, t.val = (i 0).val / 512 := ⟨⟨(i 0).val / 512, by omega⟩, rfl⟩
  refine ⟨t, flush0_10 t, ?_⟩
  rw [mem_blk_logit]
  obtain ⟨h0, h1⟩ := idx_logit t
  intro a
  match a with
  | ⟨0, _⟩ =>
    show win0_10.index t (0 : Fin 2) * 512 ≤ (i 0).val ∧ (i 0).val < win0_10.index t (0 : Fin 2) * 512 + 512
    omega
  | ⟨1, _⟩ =>
    show win0_10.index t (1 : Fin 2) * 1 ≤ (i 1).val ∧ (i 1).val < win0_10.index t (1 : Fin 2) * 1 + 1
    omega

/-- REGION 0, output window 10 (the logit column, 65536 x 1). -/
theorem final0_a (c : Dev nD) (e : Fin 65536) :
    at2 ((dat0 (F := Ideal) V c).arrAt 10 cfg0.N) e 0
      = (∑ k : Fin 64, feat (V c main_arg0) (V c main_arg1) e k * at2 (V c main_v2) k 0)
        + (∑ k : Fin 64, feat (V c main_arg0) (V c main_arg2) e k * at2 (V c main_v3) k 0)
        + at2 (V c main_v5) 0 0 := by
  have h := (dat0 (F := Ideal) V c).arrAt_eq_of_cover 10 (fun (i : S65536x1.Idx) => logitAt V c (i 0))
    (fun t _ => flushed_logit V c t) cover_logit
  exact congrFun h (ix2 e (0 : Fin 1))

/-! ## Output window 9: the message array -/

/-- The message of edge e, feature o, as one function of the arrays the region finds. -/
def msgAt (c : Dev nD) (e : Fin 65536) (o : Fin 64) : EReal :=
  max ((∑ k : Fin 64, feat (V c main_arg0) (V c main_arg1) e k * at2 (V c main_v0) k o)
       + (∑ k : Fin 64, feat (V c main_arg0) (V c main_arg2) e k * at2 (V c main_v1) k o)
       + at2 (V c main_v4) 0 o) 0

/-- The message tile at (r, o), from the entries of the tiles the body loads. -/
theorem message_tile (x0 x1 : Vec Ideal S2048x512 .f32) (x2 : Vec Ideal S2048x64 .f32) (x3 x4 : Vec Ideal S64x64 .f32)
    (x7 : Vec Ideal S1x64 .f32) (r : Fin 512) (o : Fin 64) :
    k0_pay8 (F := Ideal) x1 x0 x2 x3 x4 x7 (ix2 r o)
      = max ((∑ k : Fin 64, (∑ n : Fin 2048, x0 (ix2 n r) * x2 (ix2 n k)) * x3 (ix2 k o))
           + (∑ k : Fin 64, (∑ n : Fin 2048, x1 (ix2 n r) * x2 (ix2 n k)) * x4 (ix2 k o))
           + x7 (ix2 (0 : Fin 1) o)) 0 := by
  refine (message_apply x1 x0 x2 x3 x4 x7 r o).trans ?_
  refine congrArg (fun z => max z (0 : EReal)) (congrArg₂ (· + ·) (congrArg₂ (· + ·) ?_ ?_) rfl)
  · exact Finset.sum_congr rfl fun k _ => congrArg (fun z => z * x3 (ix2 k o)) (gsrc_apply x0 x2 r k)
  · exact Finset.sum_congr rfl fun k _ => congrArg (fun z => z * x4 (ix2 k o)) (gtgt_apply x1 x2 r k)

/-- What point t writes back to window 9 is its block of the message array. -/
theorem flushed_msg (c : Dev nD) (t : Fin cfg0.N) :
    (dat0 (F := Ideal) V c).flushed 9 t
      = ((cfg0.win 9).blk t).view.read (Elt Ideal) (fun (i : S65536x64.Idx) => msgAt V c (i 0) (i 1)) := by
  show (cfg0.win 9).cut (grid0.coords t) ((dat0 (F := Ideal) V c).after 9 t) = _
  rw [after0_9]
  unfold out0_9
  rw [View.canon_unit_zero zero_offsets]
  simp only [View.ld_unit_zero (S := S2048x512) zero_offsets, View.ld_unit_zero (S := S2048x64) zero_offsets,
    View.ld_unit_zero (S := S64x64) zero_offsets, View.ld_unit_zero (S := S1x64) zero_offsets]
  obtain ⟨h0, h1⟩ := idx_msg t
  have hN : cfg0.N = 128 := N_0
  refine funext fun (j : S512x64.Idx) => ?_
  obtain ⟨r, o, rfl⟩ : ∃ (r : Fin 512) (o : Fin 64), j = ix2 r o := ⟨j 0, j 1, eq_ix2 j⟩
  obtain ⟨e, he⟩ : ∃ e : Fin 65536, e.val = t.val * 512 + r.val :=
    ⟨⟨t.val * 512 + r.val, by have := t.isLt; have := r.isLt; omega⟩, rfl⟩
  show k0_pay8 (F := Ideal) (iblk0 (F := Ideal) V c 1 t) (iblk0 (F := Ideal) V c 0 t) (iblk0 (F := Ideal) V c 2 t)
        (iblk0 (F := Ideal) V c 3 t) (iblk0 (F := Ideal) V c 4 t) (iblk0 (F := Ideal) V c 7 t) (ix2 r o)
      = msgAt V c ((((cfg0.win 9).blk t).view.emb (ix2 r o)) 0) ((((cfg0.win 9).blk t).view.emb (ix2 r o)) 1)
  have hemb0 : (((cfg0.win 9).blk t).view.emb (ix2 r o)) 0 = e := Fin.ext (by
    show win0_9.index t (0 : Fin 2) * 512 + 1 * r.val = e.val; omega)
  have hemb1 : (((cfg0.win 9).blk t).view.emb (ix2 r o)) 1 = o := Fin.ext (by
    show win0_9.index t (1 : Fin 2) * 64 + 1 * o.val = o.val; omega)
  refine Eq.trans ?_ (congrArg₂ (msgAt V c) hemb0.symm hemb1.symm)
  refine (message_tile (iblk0 (F := Ideal) V c 0 t) (iblk0 (F := Ideal) V c 1 t) (iblk0 (F := Ideal) V c 2 t)
    (iblk0 (F := Ideal) V c 3 t) (iblk0 (F := Ideal) V c 4 t) (iblk0 (F := Ideal) V c 7 t) r o).trans ?_
  unfold msgAt feat
  refine congrArg (fun z => max z (0 : EReal)) (congrArg₂ (· + ·) (congrArg₂ (· + ·) ?_ ?_) (bf_tile_apply V c t 0 o))
  · exact Finset.sum_congr rfl fun k _ => congrArg₂ (· * ·)
      (Finset.sum_congr rfl fun n _ => congrArg₂ (· * ·) (src_tile_apply V c t n r e he) (x_tile_apply V c t n k))
      (wf_lo_tile_apply V c t k o)
  · exact Finset.sum_congr rfl fun k _ => congrArg₂ (· * ·)
      (Finset.sum_congr rfl fun n _ => congrArg₂ (· * ·) (tgt_tile_apply V c t n r e he) (x_tile_apply V c t n k))
      (wf_hi_tile_apply V c t k o)

/-- An index of the array is in point t's block of window 9 iff each coordinate is in the block's range. -/
theorem mem_blk_msg (t : Fin cfg0.N) (i : S65536x64.Idx) :
    i ∈ ((cfg0.win 9).blk t).view.set ↔ ∀ a : Fin 2, win0_9.index t a * S512x64.size a ≤ (i a).val
      ∧ (i a).val < win0_9.index t a * S512x64.size a + S512x64.size a := by
  show i ∈ ((View.whole main_v6_0).slice (win0_9.rect t)).set ↔ _
  rw [View.set_slice_whole, Rect.mem_set_unit]
  exact Iff.rfl

/-- Every entry of the message array is in some point's block: row e is in block e / 512. -/
theorem cover_msg (i : S65536x64.Idx) :
    ∃ t : Fin cfg0.N, (cfg0.win 9).flush t = true ∧ i ∈ ((cfg0.win 9).blk t).view.set := by
  have hi0 : (i 0).val < 65536 := (i 0).isLt
  have hi1 : (i 1).val < 64 := (i 1).isLt
  have hN : cfg0.N = 128 := N_0
  obtain ⟨t, ht⟩ : ∃ t : Fin cfg0.N, t.val = (i 0).val / 512 := ⟨⟨(i 0).val / 512, by omega⟩, rfl⟩
  refine ⟨t, flush0_9 t, ?_⟩
  rw [mem_blk_msg]
  obtain ⟨h0, h1⟩ := idx_msg t
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 64 ≤ (i 1).val ∧ (i 1).val < win0_9.index t (1 : Fin 2) * 64 + 64
    omega

/-- REGION 0, output window 9 (the message array, 65536 x 64). -/
theorem final0_y (c : Dev nD) (e : Fin 65536) (o : Fin 64) :
    at2 ((dat0 (F := Ideal) V c).arrAt 9 cfg0.N) e o
      = max ((∑ k : Fin 64, feat (V c main_arg0) (V c main_arg1) e k * at2 (V c main_v0) k o)
           + (∑ k : Fin 64, feat (V c main_arg0) (V c main_arg2) e k * at2 (V c main_v1) k o)
           + at2 (V c main_v4) 0 o) 0 := by
  have h := (dat0 (F := Ideal) V c).arrAt_eq_of_cover 9 (fun (i : S65536x64.Idx) => msgAt V c (i 0) (i 1))
    (fun t _ => flushed_msg V c t) cover_msg
  exact congrFun h (ix2 e o)

end Cert.KernelIdeal.Val

end
-- ==== Proof.LibAccTile.lean ====
/-
  One law of an accumulator that is cleared tile by tile, in an additive commutative monoid. Points are numbered
  tile by tile, `S` consecutive points per tile. At the first point of a tile the accumulator is cleared and
  receives the point's term; at every other point it adds the point's term to what the point before left. Then at
  the last point of tile `m` it holds the sum of the tile's `S` terms.
-/
import Idealize.ShloMosaic.PureOps.Ideal
import Mathlib.Algebra.BigOperators.Fin

open scoped BigOperators

namespace Cert.BlockSums

/-- Within tile `m`, after the point at position `k` the accumulator holds the tile's first `k + 1` terms. -/
theorem acc_tile_partial {M : Type*} [AddCommMonoid M] (S : ℕ) (N : ℕ) (p acc : ℕ → M)
    (h : ∀ n, n < N → acc n = (if n % S = 0 then 0 else acc (n - 1)) + p n) (m : ℕ) :
    ∀ k, k < S → m * S + k < N → acc (m * S + k) = ∑ j ∈ Finset.range (k + 1), p (m * S + j) := by
  have hmod : ∀ k, k < S → (m * S + k) % S = k := fun k hk => by
    rw [Nat.add_comm, Nat.add_mul_mod_self_right, Nat.mod_eq_of_lt hk]
  intro k
  induction k with
  | zero =>
    intro hk hN
    rw [h _ hN, if_pos (hmod 0 hk), zero_add, Finset.sum_range_one]
  | succ k ih =>
    intro hk hN
    have hne : ¬(m * S + (k + 1)) % S = 0 := by rw [hmod (k + 1) hk]; exact Nat.succ_ne_zero k
    have hprev : m * S + (k + 1) - 1 = m * S + k := rfl
    rw [h _ hN, if_neg hne, hprev, Finset.sum_range_succ _ (k + 1),
      ih (Nat.lt_of_succ_lt hk) (lt_trans (Nat.add_lt_add_left (Nat.lt_succ_self k) (m * S)) hN)]

/-- at the last point of tile `m` the accumulator holds the sum of the tile's `S` terms -/
theorem acc_tile {M : Type*} [AddCommMonoid M] (S : ℕ) (hS : 0 < S) (N : ℕ) (p acc : ℕ → M)
    (h : ∀ n, n < N → acc n = (if n % S = 0 then 0 else acc (n - 1)) + p n)
    (m : ℕ) (hm : m * S + (S - 1) < N) :
    acc (m * S + (S - 1)) = ∑ k : Fin S, p (m * S + k.val) := by
  rw [acc_tile_partial S N p acc h m (S - 1) (Nat.sub_lt hS Nat.one_pos) hm, Nat.sub_add_cancel hS, Finset.sum_range]

/-- tiles of 8 points -/
theorem acc_tile_8 {M : Type*} [AddCommMonoid M] (N : ℕ) (p acc : ℕ → M)
    (h : ∀ n, n < N → acc n = (if n % 8 = 0 then 0 else acc (n - 1)) + p n)
    (m : ℕ) (hm : m * 8 + 7 < N) :
    acc (m * 8 + 7) = ∑ k : Fin 8, p (m * 8 + k.val) :=
  acc_tile 8 (by decide) N p acc h m hm

/-- tiles of 16 points -/
theorem acc_tile_16 {M : Type*} [AddCommMonoid M] (N : ℕ) (p acc : ℕ → M)
    (h : ∀ n, n < N → acc n = (if n % 16 = 0 then 0 else acc (n - 1)) + p n)
    (m : ℕ) (hm : m * 16 + 15 < N) :
    acc (m * 16 + 15) = ∑ k : Fin 16, p (m * 16 + k.val) :=
  acc_tile 16 (by decide) N p acc h m hm

end Cert.BlockSums
-- ==== Proof.Region1Payload.lean ====
/-
  The arithmetic of one grid point of the per-node-sum kernel, read at an entry over the extended reals.

  A point holds a tile T of the incidence array (2048 nodes by 1024 edges), the 1024 logits a of the tile's edges
  (a column), the mean logit (a 1 x 1 array) and the running block acc of per-node sums (1 x 2048 x 1). It leaves
      acc[0, r, 0] + Σ_q T[r, q] · exp (a[q, 0] − mean[0, 0])
  at (0, r, 0): the block with its leading unit axis dropped, plus the plain matrix product of the tile with the
  column of exponentials of the centred logits (the mean laid down the 1024 rows), the unit axis put back. Changing
  the float format of the tile is the identity over the extended reals. The block a slab's first point starts from
  is the zero splat, which reads 0 everywhere.
-/
import proofs.«104795_j36816459661559_2_alg».proof.Proof.Gen.KernelIdeal.Skeleton
import proofs.«104795_j36816459661559_2_alg».proof.Proof.Spec
import proofs.«104795_j36816459661559_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Val.R1

open Cert.KernelIdeal Cert.KernelIdeal.Gen Idealize.ShloMosaic Idealize.ShloMosaic.ValueIdx
open Cert.Gat (at2 at3)

/-- The cleared block reads 0 at every entry. -/
theorem clear1_apply (r : Fin 2048) : at3 (k1_pay1 (F := Ideal)) 0 r 0 = 0 := by
  unfold k1_pay1
  refine (shapeCast_ab_1ab_apply _ _ (0 : Fin 1) r (0 : Fin 1)).trans ?_
  exact Ideal.ofBits_zero_f32

/-- One point's update at entry (0, r, 0): what the block held there plus the tile's row r against the
    exponentials of the centred logits. -/
theorem step1_apply (x0 : Vec Ideal S2048x1024 .bf16) (x1 : Vec Ideal S1024x1 .f32) (x2 : Vec Ideal S1x1 .f32)
    (xo : Vec Ideal S1x2048x1 .f32) (r : Fin 2048) :
    at3 (k1_pay2 (F := Ideal) x0 x1 x2 xo) 0 r 0
      = at3 xo 0 r 0 + ∑ q : Fin 1024, at2 x0 r q * Ideal.exp (at2 x1 q 0 - at2 x2 0 0) := by
  unfold k1_pay2
  refine (shapeCast_ab_1ab_apply _ _ (0 : Fin 1) r (0 : Fin 1)).trans ?_
  refine (addf_apply _ _ _).trans ?_
  refine congrArg₂ (· + ·) (shapeCast_1ab_ab_apply xo _ r (0 : Fin 1)) ?_
  refine (Cert.PlainDot.matmul_zero_apply _ rfl _ _ _ r (0 : Fin 1)).trans ?_
  refine Finset.sum_congr rfl fun q _ => ?_
  refine congrArg₂ (· * ·) ?_ ?_
  · exact congrFun (shapeCast_self x0 _) (ix2 r q)
  · refine congrArg Ideal.exp (congrArg₂ (· - ·) ?_ ?_)
    · exact congrFun (shapeCast_self x1 _) (ix2 q (0 : Fin 1))
    · refine (broadcastTo_1b_ab_apply _ _ q (0 : Fin 1)).trans ?_
      exact congrFun (shapeCast_self x2 _) (ix2 (0 : Fin 1) (0 : Fin 1))

end Cert.KernelIdeal.Val.R1

end
-- ==== Proof.Region1Pieces.lean ====
/-
  What one grid point of the per-node-sum kernel leaves in its output block, as a value.

  The kernel's 64 points fall into two cases. At the first point of a slab the block is cleared and the update is
  applied to the cleared block; at every other point the update is applied to what the point before left. In both
  cases the block is written last by one store over the whole block, and every load reads a whole buffer, so what
  the point leaves is the update's term applied to the buffers' contents.
-/
import proofs.«104795_j36816459661559_2_alg».proof.Proof.Gen.KernelIdeal.Frame
import Idealize.ShloMosaic.Lib.Pipeline.Value
import Idealize.ShloMosaic.Lib.Tactic

noncomputable section

namespace Cert.KernelIdeal.Val.R1

open Cert.KernelIdeal Cert.KernelIdeal.Gen Idealize.ShloMosaic Idealize.ShloMosaic.TcCoe Idealize.SL.Sem
open Idealize.ShloMosaic.Tactic

variable {F : FTy → Type} [FloatOps F]

/-- The zero offsets of a three-axis block, as the constant function. -/
theorem off3_zero1 : (![0, 0, 0] : Fin 3 → Nat) = fun _ => 0 := funext fun a => by fin_cases a <;> rfl
/-- The zero offsets of a two-axis block, as the constant function. -/
theorem off2_zero1 : (![0, 0] : Fin 2 → Nat) = fun _ => 0 := funext fun a => by fin_cases a <;> rfl

/-- A point that is not the first of its slab leaves the update of the block it found. -/
theorem carried1 (c : Dev nD) (i : grid1.Coords) (a2 : Memref sig .tc .vmem S2048x1024 .bf16) (h2 : a2.IsWhole)
    (a3 : Memref sig .tc .vmem S1024x1 .f32) (h3 : a3.IsWhole) (a4 : Memref sig .tc .vmem S1x1 .f32) (h4 : a4.IsWhole)
    (a5 : Memref sig .tc .vmem S1x2048x1 .f32) (h5 : a5.IsWhole) (hc : ¬cond1_0 i)
    (x0 : Vec F S2048x1024 .bf16) (x1 : Vec F S1024x1 .f32) (x2 : Vec F S1x1 .f32) (xo : Vec F S1x2048x1 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  rw [View.canon_unit_zero off3_zero1]
  simp only [View.readAt_eq_ld, h2.read_unread, h3.read_unread, h4.read_unread, h5.read_unread,
    View.ld_unit_zero (S := S2048x1024) off2_zero1, View.ld_unit_zero (S := S1024x1) off2_zero1,
    View.ld_unit_zero (S := S1x1) off2_zero1, View.ld_unit_zero (S := S1x2048x1) off3_zero1]

/-- The first point of a slab leaves the update of the cleared block. -/
theorem cleared1 (c : Dev nD) (i : grid1.Coords) (a2 : Memref sig .tc .vmem S2048x1024 .bf16) (h2 : a2.IsWhole)
    (a3 : Memref sig .tc .vmem S1024x1 .f32) (h3 : a3.IsWhole) (a4 : Memref sig .tc .vmem S1x1 .f32) (h4 : a4.IsWhole)
    (a5 : Memref sig .tc .vmem S1x2048x1 .f32) (h5 : a5.IsWhole) (hc : cond1_0 i)
    (x0 : Vec F S2048x1024 .bf16) (x1 : Vec F S1024x1 .f32) (x2 : Vec F S1x1 .f32) :
    out1_A_3 c i a2 h2 a3 h3 a4 h4 a5 h5 hc x0 x1 x2 = k1_pay2 x0 x1 x2 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x2048x1) off3_zero1, View.readCov_unit_zero (S := S1x2048x1) _ off3_zero1]
  simp only [View.readAt_eq_ld, h2.read_unread, h3.read_unread, h4.read_unread,
    View.ld_unit_zero (S := S2048x1024) off2_zero1, View.ld_unit_zero (S := S1024x1) off2_zero1,
    View.ld_unit_zero (S := S1x1) off2_zero1]

end Cert.KernelIdeal.Val.R1

end
-- ==== Proof.Region1.lean ====
/-
  The per-node sums of the exponentials of the centred logits, as the second kernel leaves them.

  The kernel's grid is 2 slabs of 32 tiles; point 32 s + i works on tile i of slab s: columns
  1024 (32 s + i) ... + 1023 of the incidence array (2048 nodes by 65536 edges) and the same rows of the logit
  column, with the 1 x 1 mean logit at every point. Its output block is slab s of a 2 x 2048 x 1 array. The
  block stays in place for the slab's 32 points: the first clears it, every point adds to entry (0, r, 0)
      Σ_q tile[r, q] · exp (logit[q, 0] − mean[0, 0]),
  and the block is written back after the slab's last point. So entry (s, n, 0) of the array ends at the sum over
  the slab's 32 tiles and each tile's 1024 edges of incidence[n, e] · exp (logit[e, 0] − mean[0, 0]), e the edge
  1024 (32 s + i) + j.

  The steps: the entry after a point, by the two cases (first point of a slab, any other point); the law of an
  accumulator cleared tile by tile, which turns the 32 steps of a slab into a sum over Fin 32; each input block
  read where its window says (a block's coordinate is the block index times the block size plus the coordinate
  inside the block); what the write-back after point 32 s + 31 writes; every entry of the array is in the block
  written back after the last point of its slab.
-/
import proofs.«104795_j36816459661559_2_alg».proof.Proof.Gen.KernelIdeal.Frame
import proofs.«104795_j36816459661559_2_alg».proof.Proof.Spec
import proofs.«104795_j36816459661559_2_alg».proof.Proof.LibAccTile
import proofs.«104795_j36816459661559_2_alg».proof.Proof.Region1Payload
import proofs.«104795_j36816459661559_2_alg».proof.Proof.Region1Pieces
import Idealize.ShloMosaic.Lib.Pipeline.Value
import Idealize.ShloMosaic.Lib.ValueIdx

noncomputable section

open scoped BigOperators

namespace Cert.KernelIdeal.Val.R1

open Cert.KernelIdeal Cert.KernelIdeal.Gen Idealize.ShloMosaic Idealize.ShloMosaic.ValueIdx Idealize.ShloMosaic.TcCoe Idealize.SL.Sem
open Idealize.ShloMosaic.Pipeline (Dat)
open Cert.Gat (feat edge eps at2 at3)

variable (V : (c : Dev nD) → (b : Ref sig .tc) → Buf (Elt Ideal) ((c : Thread nD τ).loc b))

/-! ## One point's term, and the entry after each point -/

/-- What point `t` adds to entry (0, r, 0) of the block: its tile's row r against the exponentials of its
    centred logits. -/
def term1 (c : Dev nD) (r : Fin 2048) (t : Fin cfg1.N) : EReal :=
  ∑ q : Fin 1024, at2 (iblk1 V c 0 t : Vec Ideal S2048x1024 .bf16) r q
    * Ideal.exp (at2 (iblk1 V c 1 t : Vec Ideal S1024x1 .f32) q 0 - at2 (iblk1 V c 2 t : Vec Ideal S1x1 .f32) 0 0)

/-- After the first point of a slab the entry is that point's term alone. -/
theorem first1 (c : Dev nD) (r : Fin 2048) (t : Fin cfg1.N) (h0 : t.val % 32 = 0) :
    at3 (outsAt1 V c t.val t.isLt) 0 r 0 = 0 + term1 V c r t := by
  rw [outsAt1_A V c t h0,
    cleared1 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t)]
  refine (step1_apply (iblk1 V c 0 t) (iblk1 V c 1 t) (iblk1 V c 2 t) (k1_pay1 (F := Ideal)) r).trans ?_
  exact congrArg (· + term1 V c r t) (clear1_apply r)

/-- After any other point the entry is what the point before left plus the point's term. -/
theorem later1 (c : Dev nD) (r : Fin 2048) (t : Fin cfg1.N) (h0 : ¬t.val % 32 = 0) :
    at3 (outsAt1 V c t.val t.isLt) 0 r 0
      = at3 (outsAt1 V c (t.val - 1) (Nat.lt_of_le_of_lt (Nat.sub_le _ _) t.isLt)) 0 r 0 + term1 V c r t := by
  rw [outsAt1_B V c t h0,
    carried1 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t) (iblk1 V c 2 t)
      (outsAt1 V c (t.val - 1) (Nat.lt_of_le_of_lt (Nat.sub_le _ _) t.isLt))]
  exact step1_apply (iblk1 V c 0 t) (iblk1 V c 1 t) (iblk1 V c 2 t)
    (outsAt1 V c (t.val - 1) (Nat.lt_of_le_of_lt (Nat.sub_le _ _) t.isLt)) r

/-! ## The 32 steps of a slab are a sum -/

/-- The entry after point `n`, as a function of the natural number `n` (0 past the grid). -/
def acc1 (c : Dev nD) (r : Fin 2048) (n : ℕ) : EReal :=
  if h : n < cfg1.N then at3 (outsAt1 V c n h) 0 r 0 else 0

/-- Point `n`'s term, as a function of the natural number `n` (0 past the grid). -/
def trm1 (c : Dev nD) (r : Fin 2048) (n : ℕ) : EReal :=
  if h : n < cfg1.N then term1 V c r ⟨n, h⟩ else 0

/-- The entry is cleared at the first point of each run of 32 and otherwise carried. -/
theorem acc1_step (c : Dev nD) (r : Fin 2048) :
    ∀ n, n < 64 → acc1 V c r n = (if n % 32 = 0 then 0 else acc1 V c r (n - 1)) + trm1 V c r n := by
  intro n hn
  have h : n < cfg1.N := lt_of_lt_of_eq hn N_1.symm
  have h' : n - 1 < cfg1.N := Nat.lt_of_le_of_lt (Nat.sub_le _ _) h
  have e1 : acc1 V c r n = at3 (outsAt1 V c n h) 0 r 0 := dif_pos h
  have e2 : acc1 V c r (n - 1) = at3 (outsAt1 V c (n - 1) h') 0 r 0 := dif_pos h'
  have e3 : trm1 V c r n = term1 V c r ⟨n, h⟩ := dif_pos h
  rw [e1, e2, e3]
  by_cases h0 : n % 32 = 0
  · rw [if_pos h0]; exact first1 V c r ⟨n, h⟩ h0
  · rw [if_neg h0]; exact later1 V c r ⟨n, h⟩ h0

/-- So after the last point of slab `s` the entry is the sum of the slab's 32 terms. -/
theorem acc1_last (c : Dev nD) (r : Fin 2048) (s : Fin 2) :
    acc1 V c r (s.val * 32 + 31) = ∑ k : Fin 32, trm1 V c r (s.val * 32 + k.val) :=
  Cert.BlockSums.acc_tile 32 (by decide) 64 (trm1 V c r) (acc1 V c r) (acc1_step V c r) s.val
    (by have := s.isLt; omega)

/-! ## Each input block, read where its window says -/

/-- The block indices of the four windows at point `t`, decided once over the 64 points: the tile window moves
    along the columns with the point, the logit window along the rows, the mean's stays, and the output's is the
    slab `t / 32`. -/
theorem index1 : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 32 ∧ win1_3.index t (1 : Fin 3) = 0 ∧ win1_3.index t (2 : Fin 3) = 0 :=
  (by decide +kernel : ∀ t : Fin grid1.N, _)

/-- Column `1024 t + q` of the incidence array is a column of it. -/
theorem col1_lt (t : Fin cfg1.N) (q : Fin 1024) : t.val * 1024 + q.val < 65536 := by
  have h1 : t.val < 64 := lt_of_lt_of_eq t.isLt N_1
  have h2 := q.isLt
  omega

/-- The tile at point `t`: rows as they are, column q is column `1024 t + q` of the incidence array. -/
theorem tile1_apply (c : Dev nD) (t : Fin cfg1.N) (r : Fin 2048) (q : Fin 1024) :
    at2 (iblk1 V c 0 t : Vec Ideal S2048x1024 .bf16) r q = at2 (V c main_v6_2) r ⟨t.val * 1024 + q.val, col1_lt t q⟩ := by
  obtain ⟨e0, e1, -⟩ := index1 t
  unfold iblk1
  show V c main_v6_2 (((cfg1.win 0).blk t).view.emb (ix2 r q)) = V c main_v6_2 (ix2 r ⟨t.val * 1024 + q.val, col1_lt t q⟩)
  refine congrArg (V c main_v6_2) ?_
  funext a
  apply Fin.ext
  match a with
  | ⟨0, _⟩ => show win1_0.index t (0 : Fin 2) * 2048 + 1 * r.val = r.val; rw [e0]; omega
  | ⟨1, _⟩ => show win1_0.index t (1 : Fin 2) * 1024 + 1 * q.val = t.val * 1024 + q.val; rw [e1]; omega

/-- The logits at point `t`: row q is row `1024 t + q` of the logit column. -/
theorem logit1_apply (c : Dev nD) (t : Fin cfg1.N) (q : Fin 1024) :
    at2 (iblk1 V c 1 t : Vec Ideal S1024x1 .f32) q 0 = at2 (V c main_v6_1) ⟨t.val * 1024 + q.val, col1_lt t q⟩ 0 := by
  obtain ⟨-, -, e2, e3, -⟩ := index1 t
  unfold iblk1
  show V c main_v6_1 (((cfg1.win 1).blk t).view.emb (ix2 q (0 : Fin 1))) = V c main_v6_1 (ix2 ⟨t.val * 1024 + q.val, col1_lt t q⟩ (0 : Fin 1))
  refine congrArg (V c main_v6_1) ?_
  funext a
  apply Fin.ext
  match a with
  | ⟨0, _⟩ => show win1_1.index t (0 : Fin 2) * 1024 + 1 * q.val = t.val * 1024 + q.val; rw [e2]; omega
  | ⟨1, _⟩ => show win1_1.index t (1 : Fin 2) * 1 + 1 * 0 = 0; rw [e3]

/-- The mean at every point is the 1 x 1 mean array. -/
theorem mean1_apply (c : Dev nD) (t : Fin cfg1.N) :
    at2 (iblk1 V c 2 t : Vec Ideal S1x1 .f32) 0 0 = at2 (V c main_v10) 0 0 := by
  obtain ⟨-, -, -, -, e4, e5, -⟩ := index1 t
  unfold iblk1
  show V c main_v10 (((cfg1.win 2).blk t).view.emb (ix2 (0 : Fin 1) (0 : Fin 1))) = V c main_v10 (ix2 (0 : Fin 1) (0 : Fin 1))
  refine congrArg (V c main_v10) ?_
  funext a
  apply Fin.ext
  match a with
  | ⟨0, _⟩ => show win1_2.index t (0 : Fin 2) * 1 + 1 * 0 = 0; rw [e4]
  | ⟨1, _⟩ => show win1_2.index t (1 : Fin 2) * 1 + 1 * 0 = 0; rw [e5]

/-- So point `t`'s term is the sum over the 1024 edges `1024 t + q`. -/
theorem term1_eq (c : Dev nD) (r : Fin 2048) (t : Fin cfg1.N) :
    term1 V c r t = ∑ q : Fin 1024, at2 (V c main_v6_2) r ⟨t.val * 1024 + q.val, col1_lt t q⟩
      * Ideal.exp (at2 (V c main_v6_1) ⟨t.val * 1024 + q.val, col1_lt t q⟩ 0 - at2 (V c main_v10) 0 0) := by
  unfold term1
  refine Finset.sum_congr rfl fun q _ => ?_
  rw [tile1_apply V c t r q, logit1_apply V c t q, mean1_apply V c t]

/-! ## The array after the run -/

/-- The per-node sum of slab `s` at node `n`: over the slab's 32 tiles and each tile's 1024 edges. -/
def nodeSum1 (c : Dev nD) (s : Fin 2) (n : Fin 2048) : EReal :=
  ∑ t : Fin 32, ∑ j : Fin 1024, at2 (V c main_v6_2) n (edge s t j)
    * Ideal.exp (at2 (V c main_v6_1) (edge s t j) 0 - at2 (V c main_v10) 0 0)

/-- The per-node sums as contents of the whole 2 x 2048 x 1 array. -/
def nodeSums1 (c : Dev nD) : S2x2048x1.Idx → EReal := fun i => nodeSum1 V c (i 0) (i 1)

/-- After the last point of slab `s` entry (0, r, 0) of the block is the slab's per-node sum at r. -/
theorem slab1 (c : Dev nD) (r : Fin 2048) (s : Fin 2) (h : s.val * 32 + 31 < cfg1.N) :
    at3 (outsAt1 V c (s.val * 32 + 31) h) 0 r 0 = nodeSum1 V c s r := by
  have e : acc1 V c r (s.val * 32 + 31) = at3 (outsAt1 V c (s.val * 32 + 31) h) 0 r 0 := dif_pos h
  rw [← e, acc1_last]
  unfold nodeSum1
  refine Finset.sum_congr rfl fun k _ => ?_
  have hk : s.val * 32 + k.val < cfg1.N := by
    have h1 := s.isLt; have h2 := k.isLt; have h3 : cfg1.N = 64 := N_1; omega
  have e3 : trm1 V c r (s.val * 32 + k.val) = term1 V c r ⟨s.val * 32 + k.val, hk⟩ := dif_pos hk
  rw [e3, term1_eq]

/-- WHAT A WRITE-BACK WRITES. The block is written back after the last point of a slab only, and then it is the
    slab's block of the per-node sums. -/
theorem flushed1_eq (c : Dev nD) (t : Fin cfg1.N) (hf : (cfg1.win 3).flush t = true) :
    (dat1 (F := Ideal) V c).flushed 3 t = ((cfg1.win 3).blk t).view.read (Elt Ideal) (nodeSums1 V c) := by
  have h31 : t.val % 32 = 31 := (flush1_3 t).mp hf
  have hN : t.val < 64 := lt_of_lt_of_eq t.isLt N_1
  obtain ⟨-, -, -, -, -, -, e6, e7, e8⟩ := index1 t
  show (cfg1.win 3).cut (grid1.coords t) ((dat1 (F := Ideal) V c).after 3 t) = _
  rw [after1_3]
  refine funext fun (y : S1x2048x1.Idx) => ?_
  obtain ⟨u, r, z, rfl⟩ : ∃ (u : Fin 1) (r : Fin 2048) (z : Fin 1), y = ix3 u r z := ⟨y 0, y 1, y 2, eq_ix3 y⟩
  obtain rfl : u = 0 := Subsingleton.elim _ _
  obtain rfl : z = 0 := Subsingleton.elim _ _
  rw [View.read_apply]
  have hs : t.val / 32 < 2 := by omega
  have ht : t.val = (⟨t.val / 32, hs⟩ : Fin 2).val * 32 + 31 := by show t.val = t.val / 32 * 32 + 31; omega
  have hemb : ((cfg1.win 3).blk t).view.emb (ix3 (0 : Fin 1) r (0 : Fin 1)) = ix3 (⟨t.val / 32, hs⟩ : Fin 2) r (0 : Fin 1) := by
    funext a
    apply Fin.ext
    match a with
    | ⟨0, _⟩ => show win1_3.index t (0 : Fin 3) * 1 + 1 * 0 = t.val / 32; rw [e6]; omega
    | ⟨1, _⟩ => show win1_3.index t (1 : Fin 3) * 2048 + 1 * r.val = r.val; rw [e7]; omega
    | ⟨2, _⟩ => show win1_3.index t (2 : Fin 3) * 1 + 1 * 0 = 0; rw [e8]
  show at3 (outsAt1 V c t.val t.isLt) 0 r 0 = nodeSums1 V c (((cfg1.win 3).blk t).view.emb (ix3 (0 : Fin 1) r (0 : Fin 1)))
  rw [hemb]
  show _ = nodeSum1 V c (⟨t.val / 32, hs⟩ : Fin 2) r
  have key : ∀ (n : ℕ) (hn : n < cfg1.N), n = (⟨t.val / 32, hs⟩ : Fin 2).val * 32 + 31 →
      at3 (outsAt1 V c n hn) 0 r 0 = nodeSum1 V c (⟨t.val / 32, hs⟩ : Fin 2) r := by
    intro n hn e
    subst e
    exact slab1 V c r _ hn
  exact key t.val t.isLt ht

/-- An entry of the array is in the block of point `t` iff each coordinate is in the block's range. -/
theorem mem_blk1 (t : Fin cfg1.N) (i : S2x2048x1.Idx) :
    i ∈ ((cfg1.win 3).blk t).view.set ↔ ∀ a : Fin 3, win1_3.index t a * S1x2048x1.size a ≤ (i a).val
      ∧ (i a).val < win1_3.index t a * S1x2048x1.size a + S1x2048x1.size a := by
  show i ∈ ((View.whole main_v11).slice (win1_3.rect t)).set ↔ _
  rw [View.set_slice_whole, Rect.mem_set_unit]
  exact Iff.rfl

/-- Every entry (s, n, 0) is in the block written back after the last point of slab s. -/
theorem cover1 (i : S2x2048x1.Idx) :
    ∃ t : Fin cfg1.N, (cfg1.win 3).flush t = true ∧ i ∈ ((cfg1.win 3).blk t).view.set := by
  have h0 : (i 0).val < 2 := (i 0).isLt
  have h1 : (i 1).val < 2048 := (i 1).isLt
  have h2 : (i 2).val < 1 := (i 2).isLt
  have hN : (i 0).val * 32 + 31 < cfg1.N := by have h3 : cfg1.N = 64 := N_1; omega
  obtain ⟨-, -, -, -, -, -, e6, e7, e8⟩ := index1 ⟨(i 0).val * 32 + 31, hN⟩
  have e6' : win1_3.index ⟨(i 0).val * 32 + 31, hN⟩ (0 : Fin 3) = ((i 0).val * 32 + 31) / 32 := e6
  refine ⟨⟨(i 0).val * 32 + 31, hN⟩, (flush1_3 _).mpr (by show ((i 0).val * 32 + 31) % 32 = 31; omega), ?_⟩
  rw [mem_blk1]
  intro a
  match a with
  | ⟨0, _⟩ =>
    show win1_3.index ⟨(i 0).val * 32 + 31, hN⟩ (0 : Fin 3) * 1 ≤ (i 0).val
      ∧ (i 0).val < win1_3.index ⟨(i 0).val * 32 + 31, hN⟩ (0 : Fin 3) * 1 + 1
    rw [e6']; omega
  | ⟨1, _⟩ =>
    show win1_3.index ⟨(i 0).val * 32 + 31, hN⟩ (1 : Fin 3) * 2048 ≤ (i 1).val
      ∧ (i 1).val < win1_3.index ⟨(i 0).val * 32 + 31, hN⟩ (1 : Fin 3) * 2048 + 2048
    rw [e7]; omega
  | ⟨2, _⟩ =>
    show win1_3.index ⟨(i 0).val * 32 + 31, hN⟩ (2 : Fin 3) * 1 ≤ (i 2).val
      ∧ (i 2).val < win1_3.index ⟨(i 0).val * 32 + 31, hN⟩ (2 : Fin 3) * 1 + 1
    rw [e8]; omega

end Cert.KernelIdeal.Val.R1

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open Cert.Gat (feat edge eps at2 at3)
open Cert.KernelIdeal.Val.R1

variable (V : (c : Dev nD) → (b : Ref sig .tc) → Buf (Elt Ideal) ((c : Thread nD τ).loc b))

/-- REGION 1, output window 3 (the two slabs of per-node sums, 2 x 2048 x 1). -/
theorem final1 (c : Dev nD) (s : Fin 2) (n : Fin 2048) :
    at3 ((dat1 (F := Ideal) V c).arrAt 3 cfg1.N) s n 0
      = ∑ t : Fin 32, ∑ j : Fin 1024, at2 (V c main_v6_2) n (edge s t j)
          * Ideal.exp (at2 (V c main_v6_1) (edge s t j) 0 - at2 (V c main_v10) 0 0) := by
  have h := (dat1 (F := Ideal) V c).arrAt_eq_of_cover 3 (nodeSums1 V c) (flushed1_eq V c) cover1
  refine (congrFun h (ix3 s n (0 : Fin 1))).trans ?_
  rfl

end Cert.KernelIdeal.Val

end
-- ==== Proof.Region2Pieces.lean ====
/-
  Region 2, the pieces. What the body of the third kernel leaves in the staging buffer of its output block, in its
  two control cases, as the body's pure payloads of the blocks it loaded: at the first point of a slab the block is
  cleared and then accumulated into; at every other point it is accumulated into as the point before left it.
-/
import proofs.«104795_j36816459661559_2_alg».proof.Proof.Gen.KernelIdeal.Frame
import Idealize.ShloMosaic.Lib.Pipeline.Value
import Idealize.ShloMosaic.Lib.ValueIdx
import Idealize.ShloMosaic.Lib.Tactic

noncomputable section

open scoped BigOperators

namespace Cert.KernelIdeal.Val.R2

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]

/-- Every load and store of the body starts at the origin of its buffer. -/
theorem zero2 : (![0, 0] : Fin 2 → Nat) = fun _ => 0 := funext fun a => by fin_cases a <;> rfl
theorem zero3 : (![0, 0, 0] : Fin 3 → Nat) = fun _ => 0 := funext fun a => by fin_cases a <;> rfl

/-- A point that is not the first of its slab: the body leaves, in the output block holding `xo`, the accumulate
    payload of the five input blocks and `xo` — its one store covers the block, and each load reads a whole buffer.
    The payload takes the tile, the per-node sums, the logits, the mean, the messages and the running block. -/
theorem out_B (c : Dev nD) (i : grid2.Coords)
    (a2 : Memref sig .tc .vmem S2048x1024 .bf16) (h2 : a2.IsWhole) (a3 : Memref sig .tc .vmem S1024x1 .f32) (h3 : a3.IsWhole)
    (a4 : Memref sig .tc .vmem S1024x64 .bf16) (h4 : a4.IsWhole) (a5 : Memref sig .tc .vmem S2048x1 .f32) (h5 : a5.IsWhole)
    (a6 : Memref sig .tc .vmem S1x1 .f32) (h6 : a6.IsWhole) (a7 : Memref sig .tc .vmem S1x2048x64 .f32) (h7 : a7.IsWhole)
    (hc : ¬cond2_0 i)
    (x0 : Vec F S2048x1024 .bf16) (x1 : Vec F S1024x1 .f32) (x2 : Vec F S1024x64 .bf16) (x3 : Vec F S2048x1 .f32)
    (x4 : Vec F S1x1 .f32) (xo : Vec F S1x2048x64 .f32) :
    out2_B_5 c i a2 h2 a3 h3 a4 h4 a5 h5 a6 h6 a7 h7 hc x0 x1 x2 x3 x4 xo = k2_pay2 x0 x3 x1 x4 x2 xo := by
  unfold out2_B_5
  rw [View.read_writes_eq_canon _ _ _ (cover2_B_5 c i a2 h2 a3 h3 a4 h4 a5 h5 a6 h6 a7 h7 hc x0 x1 x2 x3 x4 xo)]
  unfold kernelRun2_B
  dsimp only
  rw [View.canon_unit_zero zero3]
  simp only [View.readAt_eq_ld, h2.read_unread, h3.read_unread, h4.read_unread, h5.read_unread, h6.read_unread, h7.read_unread,
    View.ld_unit_zero (S := S2048x1024) zero2, View.ld_unit_zero (S := S1024x1) zero2, View.ld_unit_zero (S := S1024x64) zero2,
    View.ld_unit_zero (S := S2048x1) zero2, View.ld_unit_zero (S := S1x1) zero2, View.ld_unit_zero (S := S1x2048x64) zero3]

/-- The first point of a slab: the body first stores the zero block over the whole output block, reads it back, and
    leaves the accumulate payload of the five input blocks and the zero block. -/
theorem out_A (c : Dev nD) (i : grid2.Coords)
    (a2 : Memref sig .tc .vmem S2048x1024 .bf16) (h2 : a2.IsWhole) (a3 : Memref sig .tc .vmem S1024x1 .f32) (h3 : a3.IsWhole)
    (a4 : Memref sig .tc .vmem S1024x64 .bf16) (h4 : a4.IsWhole) (a5 : Memref sig .tc .vmem S2048x1 .f32) (h5 : a5.IsWhole)
    (a6 : Memref sig .tc .vmem S1x1 .f32) (h6 : a6.IsWhole) (a7 : Memref sig .tc .vmem S1x2048x64 .f32) (h7 : a7.IsWhole)
    (hc : cond2_0 i)
    (x0 : Vec F S2048x1024 .bf16) (x1 : Vec F S1024x1 .f32) (x2 : Vec F S1024x64 .bf16) (x3 : Vec F S2048x1 .f32)
    (x4 : Vec F S1x1 .f32) :
    out2_A_5 c i a2 h2 a3 h3 a4 h4 a5 h5 a6 h6 a7 h7 hc x0 x1 x2 x3 x4 = k2_pay2 x0 x3 x1 x4 x2 k2_pay1 := by
  unfold out2_A_5
  rw [View.read_writes_eq_canon _ _ _ (cover2_A_5 c i a2 h2 a3 h3 a4 h4 a5 h5 a6 h6 a7 h7 hc x0 x1 x2 x3 x4)]
  unfold kernelRun2_A
  dsimp only
  sl_unfold_words
  rw [View.canon_cons_unit_zero (S := S1x2048x64) zero3, View.readCov_unit_zero (S := S1x2048x64) _ zero3]
  simp only [View.readAt_eq_ld, h2.read_unread, h3.read_unread, h4.read_unread, h5.read_unread, h6.read_unread,
    View.ld_unit_zero (S := S2048x1024) zero2, View.ld_unit_zero (S := S1024x1) zero2, View.ld_unit_zero (S := S1024x64) zero2,
    View.ld_unit_zero (S := S2048x1) zero2, View.ld_unit_zero (S := S1x1) zero2]

end Cert.KernelIdeal.Val.R2

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.Region2Payload.lean ====
/-
  Region 2, the arithmetic of one point. The accumulate payload of the third kernel read at an entry over the
  extended reals: a tile of 1024 edges adds, to the output's entry at node r and feature o, the sum over the tile's
  edges q of  tile[r,q] · (y[q,o] · w q),  where  w q = exp (a[q] − mean) / (Σₙ tile[n,q] · nsum[n] + ε)  is the
  edge's attention weight. The cleared block is zero at every entry.
-/
import proofs.«104795_j36816459661559_2_alg».proof.Proof.Gen.KernelIdeal.Skeleton
import proofs.«104795_j36816459661559_2_alg».proof.Proof.Spec
import proofs.«104795_j36816459661559_2_alg».proof.Proof.LibDotTN
import proofs.«104795_j36816459661559_2_alg».proof.Proof.LibPlainDot
import proofs.«104795_j36816459661559_2_alg».proof.Proof.LibColumn
import Idealize.ShloMosaic.Lib.ValueLayout
import Idealize.ShloMosaic.Lib.Pipeline.Value
import Idealize.ShloMosaic.Lib.ValueIdx

noncomputable section

open scoped BigOperators

namespace Cert.KernelIdeal.Val.R2

open Cert.KernelIdeal Cert.KernelIdeal.Gen Idealize.ShloMosaic Idealize.ShloMosaic.ValueIdx
open Cert.Gat (at2 at3 eps)

/-- The attention weight of edge `q` of a tile: the exponential of its centred logit over the denominator its target
    node's sum gives it, the per-node sums carried back to the edge through the tile's incidence column `q`. -/
def weight (tile : Vec Ideal S2048x1024 .bf16) (nsum : Vec Ideal S2048x1 .f32) (a : Vec Ideal S1024x1 .f32)
    (mean : Vec Ideal S1x1 .f32) (q : Fin 1024) : EReal :=
  Ideal.div (Ideal.exp (at2 a q 0 - at2 mean 0 0)) ((∑ n : Fin 2048, at2 tile n q * at2 nsum n 0) + eps)

/-- The exponential of a vector, read at an index: the extended reals' exponential of the entry. -/
theorem exp_apply {s : Shape} {φ : FTy} (a : FVec Ideal s φ) (i : s.Idx) : exp a i = Ideal.exp (a i) := rfl

/-- What one tile adds to the output at node `r`, feature `o`: the tile's row `r` against the messages' column `o`,
    each edge's message scaled by its attention weight. -/
def term (tile : Vec Ideal S2048x1024 .bf16) (nsum : Vec Ideal S2048x1 .f32) (a : Vec Ideal S1024x1 .f32)
    (mean : Vec Ideal S1x1 .f32) (y : Vec Ideal S1024x64 .bf16) (r : Fin 2048) (o : Fin 64) : EReal :=
  ∑ q : Fin 1024, at2 tile r q * (at2 y q o * weight tile nsum a mean q)

/-- The accumulate payload at node `r`, feature `o`: the running block's entry plus the tile's term. The two format
    changes are the identity on extended reals; the first product contracts the node axis of the tile and of the
    per-node sums, the second is the plain product of the tile with the scaled messages. -/
theorem pay2_apply (x0 : Vec Ideal S2048x1024 .bf16) (x3 : Vec Ideal S2048x1 .f32) (x1 : Vec Ideal S1024x1 .f32)
    (x4 : Vec Ideal S1x1 .f32) (x2 : Vec Ideal S1024x64 .bf16) (xo : Vec Ideal S1x2048x64 .f32) (r : Fin 2048) (o : Fin 64) :
    at3 (k2_pay2 (F := Ideal) x0 x3 x1 x4 x2 xo) 0 r o = at3 xo 0 r o + term x0 x3 x1 x4 x2 r o := by
  unfold k2_pay2 term weight
  dsimp only
  refine (shapeCast_ab_1ab_apply _ _ (0 : Fin 1) r o).trans ?_
  refine (addf_apply (φ := .f32) _ _ _).trans ?_
  refine congrArg₂ (· + ·) (shapeCast_1ab_ab_apply xo _ r o) ?_
  refine (Cert.PlainDot.matmul_zero_apply _ rfl none _ _ r o).trans ?_
  refine Finset.sum_congr rfl fun q _ => ?_
  refine congrArg₂ (· * ·) (congrFun (shapeCast_self x0 _) (ix2 r q)) ?_
  refine (truncf_apply (φ := .f32) (ψ := .bf16) _ bitsLt_bf16_f32 _).trans ?_
  refine (mulf_apply (φ := .f32) _ _ _).trans ?_
  refine congrArg₂ (· * ·) ((extf_apply (φ := .bf16) (ψ := .f32) _ bitsLt_bf16_f32 _).trans (congrFun (shapeCast_self x2 _) (ix2 q o))) ?_
  refine (Cert.GraphConv.Column.broadcastTo_a1_ab_apply _ _ q o).trans ?_
  refine (divf_apply (φ := .f32) _ _ _).trans ?_
  refine congrArg₂ Ideal.div ?_ ?_
  · refine (exp_apply (φ := .f32) _ _).trans ?_
    refine congrArg Ideal.exp ((subf_apply (φ := .f32) _ _ _).trans (congrArg₂ (· - ·) (congrFun (shapeCast_self x1 _) _) ?_))
    exact (broadcastTo_1b_ab_apply _ _ q (0 : Fin 1)).trans (congrFun (shapeCast_self x4 _) _)
  · refine (addf_apply (φ := .f32) _ _ _).trans (congrArg₂ (· + ·) ?_ rfl)
    refine (Cert.DotTN.matmul_zero_apply _ rfl _ _ _ q (0 : Fin 1)).trans ?_
    refine Finset.sum_congr rfl fun n _ => ?_
    exact congrArg₂ (· * ·) ((extf_apply (φ := .bf16) (ψ := .f32) _ bitsLt_bf16_f32 _).trans (congrFun (shapeCast_self x0 _) _)) (congrFun (shapeCast_self x3 _) _)

/-- The block the first point of a slab stores first is zero at every entry. -/
theorem pay1_apply (r : Fin 2048) (o : Fin 64) : at3 (k2_pay1 (F := Ideal)) 0 r o = 0 := by
  unfold k2_pay1
  dsimp only
  refine (shapeCast_ab_1ab_apply _ _ (0 : Fin 1) r o).trans ?_
  exact Ideal.ofBits_zero_f32

end Cert.KernelIdeal.Val.R2

end
-- ==== Proof.Region2Blocks.lean ====
/-
  Region 2, from blocks to the arrays. The grid has 64 points, point t = 32 s + k being tile k of slab s. At point t
  the tile window holds columns 1024 t … 1024 t + 1023 of the 2048 x 65536 incidence array, the logit and message
  windows rows 1024 t … 1024 t + 1023 of their arrays, the per-node sums and the mean their whole arrays. A block's
  coordinate is its block index times the block's extent plus the coordinate inside the block; the block indices
  are decided once over the grid. So what a point adds to the output, a sum over the 1024 edges of its blocks, is
  the sum over the edges (32 s + k) 1024 + j of the arrays.
-/
import proofs.«104795_j36816459661559_2_alg».proof.Proof.Gen.KernelIdeal.Frame
import proofs.«104795_j36816459661559_2_alg».proof.Proof.Spec
import proofs.«104795_j36816459661559_2_alg».proof.Proof.Region2Pieces
import proofs.«104795_j36816459661559_2_alg».proof.Proof.Region2Payload
import proofs.«104795_j36816459661559_2_alg».proof.Proof.LibAccTile
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open Cert.Gat (feat edge eps at2 at3)

variable (V : (c : Dev nD) → (b : Ref sig .tc) → Buf (Elt Ideal) ((c : Thread nD τ).loc b))

namespace R2

/-- The index maps, decided once over the 64 points: the tile, the logits and the messages move with the point; the
    per-node sums and the mean stay; the output block is the point's slab. -/
theorem idx_facts : ∀ t : Fin cfg2.N,
    win2_0.index t (0 : Fin 2) = 0 ∧ win2_0.index t (1 : Fin 2) = t.val
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val / 32 ∧ win2_5.index t (1 : Fin 3) = 0 ∧ win2_5.index t (2 : Fin 3) = 0 :=
  (by decide +kernel : ∀ t : Fin grid2.N, _)

/-- The tile at point `t` holds columns `1024 t … 1024 t + 1023` of the incidence array. -/
theorem tile_at (c : Dev nD) (t : Fin cfg2.N) (r : Fin 2048) (q : Fin 1024) (e : Fin 65536) (he : e.val = 1024 * t.val + q.val) :
    at2 (iblk2 V c 0 t) r q = at2 (V c main_v6_2) r e := by
  unfold iblk2
  show ((cfg2.win 0).blk t).view.read (Elt Ideal) (V c main_v6_2) (ix2 r q) = V c main_v6_2 (ix2 r e)
  rw [View.read_apply]
  refine congrArg (V c main_v6_2) (funext fun a => Fin.ext ?_)
  obtain ⟨e0, e1, -⟩ := idx_facts t
  match a with
  | ⟨0, _⟩ => show win2_0.index t (0 : Fin 2) * 2048 + 1 * r.val = r.val; rw [e0]; omega
  | ⟨1, _⟩ => show win2_0.index t (1 : Fin 2) * 1024 + 1 * q.val = e.val; rw [e1, he]; omega

/-- The logits' block at point `t` holds rows `1024 t … 1024 t + 1023` of the logit column. -/
theorem logit_at (c : Dev nD) (t : Fin cfg2.N) (q : Fin 1024) (e : Fin 65536) (he : e.val = 1024 * t.val + q.val) :
    at2 (iblk2 V c 1 t) q 0 = at2 (V c main_v6_1) e 0 := by
  unfold iblk2
  show ((cfg2.win 1).blk t).view.read (Elt Ideal) (V c main_v6_1) (ix2 q (0 : Fin 1)) = V c main_v6_1 (ix2 e (0 : Fin 1))
  rw [View.read_apply]
  refine congrArg (V c main_v6_1) (funext fun a => Fin.ext ?_)
  obtain ⟨-, -, e0, e1, -⟩ := idx_facts t
  match a with
  | ⟨0, _⟩ => show win2_1.index t (0 : Fin 2) * 1024 + 1 * q.val = e.val; rw [e0, he]; omega
  | ⟨1, _⟩ => show win2_1.index t (1 : Fin 2) * 1 + 1 * 0 = 0; rw [e1]

/-- The messages' block at point `t` holds rows `1024 t … 1024 t + 1023` of the message array. -/
theorem msg_at (c : Dev nD) (t : Fin cfg2.N) (q : Fin 1024) (o : Fin 64) (e : Fin 65536) (he : e.val = 1024 * t.val + q.val) :
    at2 (iblk2 V c 2 t) q o = at2 (V c main_v6_0) e o := by
  unfold iblk2
  show ((cfg2.win 2).blk t).view.read (Elt Ideal) (V c main_v6_0) (ix2 q o) = V c main_v6_0 (ix2 e o)
  rw [View.read_apply]
  refine congrArg (V c main_v6_0) (funext fun a => Fin.ext ?_)
  obtain ⟨-, -, -, -, e0, e1, -⟩ := idx_facts t
  match a with
  | ⟨0, _⟩ => show win2_2.index t (0 : Fin 2) * 1024 + 1 * q.val = e.val; rw [e0, he]; omega
  | ⟨1, _⟩ => show win2_2.index t (1 : Fin 2) * 64 + 1 * o.val = o.val; rw [e1]; omega

/-- The per-node sums' block is the whole column at every point. -/
theorem nsum_at (c : Dev nD) (t : Fin cfg2.N) (n : Fin 2048) : at2 (iblk2 V c 3 t) n 0 = at2 (V c main_v12) n 0 := by
  unfold iblk2
  show ((cfg2.win 3).blk t).view.read (Elt Ideal) (V c main_v12) (ix2 n (0 : Fin 1)) = V c main_v12 (ix2 n (0 : Fin 1))
  rw [View.read_apply]
  refine congrArg (V c main_v12) (funext fun a => Fin.ext ?_)
  obtain ⟨-, -, -, -, -, -, e0, e1, -⟩ := idx_facts t
  match a with
  | ⟨0, _⟩ => show win2_3.index t (0 : Fin 2) * 2048 + 1 * n.val = n.val; rw [e0]; omega
  | ⟨1, _⟩ => show win2_3.index t (1 : Fin 2) * 1 + 1 * 0 = 0; rw [e1]

/-- The mean's block is the whole 1 x 1 array at every point. -/
theorem mean_at (c : Dev nD) (t : Fin cfg2.N) : at2 (iblk2 V c 4 t) 0 0 = at2 (V c main_v10) 0 0 := by
  unfold iblk2
  show ((cfg2.win 4).blk t).view.read (Elt Ideal) (V c main_v10) (ix2 (0 : Fin 1) (0 : Fin 1)) = V c main_v10 (ix2 (0 : Fin 1) (0 : Fin 1))
  rw [View.read_apply]
  refine congrArg (V c main_v10) (funext fun a => Fin.ext ?_)
  obtain ⟨-, -, -, -, -, -, -, -, e0, e1, -⟩ := idx_facts t
  match a with
  | ⟨0, _⟩ => show win2_4.index t (0 : Fin 2) * 1 + 1 * 0 = 0; rw [e0]
  | ⟨1, _⟩ => show win2_4.index t (1 : Fin 2) * 1 + 1 * 0 = 0; rw [e1]

/-- What tile `k` of slab `s` adds to the output's entry at node `n`, feature `o`, in the arrays' own coordinates. -/
def tileTerm (c : Dev nD) (s : Fin 2) (k : Fin 32) (n : Fin 2048) (o : Fin 64) : EReal :=
  ∑ j : Fin 1024, at2 (V c main_v6_2) n (edge s k j)
    * (at2 (V c main_v6_0) (edge s k j) o
       * Ideal.div (Ideal.exp (at2 (V c main_v6_1) (edge s k j) 0 - at2 (V c main_v10) 0 0))
           ((∑ n' : Fin 2048, at2 (V c main_v6_2) n' (edge s k j) * at2 (V c main_v12) n' 0) + eps))

/-- At point `32 s + k` the term of the point's blocks is tile `k` of slab `s`'s term: edge `q` of the blocks is edge
    `(32 s + k) 1024 + q` of the arrays. -/
theorem term_at (c : Dev nD) (t : Fin cfg2.N) (s : Fin 2) (k : Fin 32) (ht : t.val = s.val * 32 + k.val) (r : Fin 2048) (o : Fin 64) :
    term (iblk2 V c 0 t) (iblk2 V c 3 t) (iblk2 V c 1 t) (iblk2 V c 4 t) (iblk2 V c 2 t) r o = tileTerm V c s k r o := by
  unfold term weight tileTerm
  refine Finset.sum_congr rfl fun q _ => ?_
  have he : (edge s k q).val = 1024 * t.val + q.val := by
    show (s.val * 32 + k.val) * 1024 + q.val = 1024 * t.val + q.val
    rw [ht]; omega
  exact congrArg₂ (· * ·) (tile_at V c t r q (edge s k q) he)
    (congrArg₂ (· * ·) (msg_at V c t q o (edge s k q) he)
      (congrArg₂ Ideal.div
        (congrArg Ideal.exp (congrArg₂ (· - ·) (logit_at V c t q (edge s k q) he) (mean_at V c t)))
        (congrArg₂ (· + ·)
          (Finset.sum_congr rfl fun n _ => congrArg₂ (· * ·) (tile_at V c t n q (edge s k q) he) (nsum_at V c t n)) rfl)))

end R2

end Cert.KernelIdeal.Val

end
-- ==== Proof.Region2.lean ====
/-
  Region 2, the value of the output array. The third kernel walks 2 slabs of 32 tiles of 1024 edges. Its output block,
  slab s of the 2 x 2048 x 64 array, stays in its staging buffer for the slab's 32 points: cleared at the first,
  accumulated into at each, written back after the last. So after the last point of slab s the block's entry at node
  n, feature o holds the sum over the slab's tiles k of the tile's term, and the array's entry (s, n, o) is

      Σₖ Σⱼ tgt[n, e] · (msg[e, o] · exp (logit[e] − mean) / (Σₙ' tgt[n', e] · nsum[n'] + ε)),   e = (32 s + k) 1024 + j.

  Addition on the extended reals is a commutative monoid, which is all the accumulator's law needs.
-/
import proofs.«104795_j36816459661559_2_alg».proof.Proof.Gen.KernelIdeal.Frame
import proofs.«104795_j36816459661559_2_alg».proof.Proof.Spec
import proofs.«104795_j36816459661559_2_alg».proof.Proof.Region2Blocks
import proofs.«104795_j36816459661559_2_alg».proof.Proof.LibAccTile
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open Cert.Gat (feat edge eps at2 at3)

variable (V : (c : Dev nD) → (b : Ref sig .tc) → Buf (Elt Ideal) ((c : Thread nD τ).loc b))

namespace R2

/-- After the first point of a slab the output block's entry is the point's term: the block was cleared first. -/
theorem outs_first (c : Dev nD) (t : Fin cfg2.N) (h0 : t.val % 32 = 0) (r : Fin 2048) (o : Fin 64) :
    at3 (outsAt2 V c t.val t.isLt) 0 r o
      = term (iblk2 V c 0 t) (iblk2 V c 3 t) (iblk2 V c 1 t) (iblk2 V c 4 t) (iblk2 V c 2 t) r o := by
  rw [outsAt2_A V c t h0,
    out_A (F := Ideal) c (grid2.coords t) (ms2_0 t) (hs2_0 t) (ms2_1 t) (hs2_1 t) (ms2_2 t) (hs2_2 t) (ms2_3 t) (hs2_3 t)
      (ms2_4 t) (hs2_4 t) (ms2_5 t) (hs2_5 t) ((hcond2_0 t).mpr h0)
      (iblk2 V c 0 t) (iblk2 V c 1 t) (iblk2 V c 2 t) (iblk2 V c 3 t) (iblk2 V c 4 t)]
  refine (pay2_apply (iblk2 V c 0 t) (iblk2 V c 3 t) (iblk2 V c 1 t) (iblk2 V c 4 t) (iblk2 V c 2 t) (k2_pay1 (F := Ideal)) r o).trans ?_
  rw [pay1_apply, zero_add]

/-- After any other point it is what the point before left plus the point's term. -/
theorem outs_next (c : Dev nD) (t : Fin cfg2.N) (h0 : ¬t.val % 32 = 0) (r : Fin 2048) (o : Fin 64) :
    at3 (outsAt2 V c t.val t.isLt) 0 r o
      = at3 (outsAt2 V c (t.val - 1) (Nat.lt_of_le_of_lt (Nat.sub_le _ _) t.isLt)) 0 r o
        + term (iblk2 V c 0 t) (iblk2 V c 3 t) (iblk2 V c 1 t) (iblk2 V c 4 t) (iblk2 V c 2 t) r o := by
  rw [outsAt2_B V c t h0,
    out_B (F := Ideal) c (grid2.coords t) (ms2_0 t) (hs2_0 t) (ms2_1 t) (hs2_1 t) (ms2_2 t) (hs2_2 t) (ms2_3 t) (hs2_3 t)
      (ms2_4 t) (hs2_4 t) (ms2_5 t) (hs2_5 t) (fun h => h0 ((hcond2_0 t).mp h))
      (iblk2 V c 0 t) (iblk2 V c 1 t) (iblk2 V c 2 t) (iblk2 V c 3 t) (iblk2 V c 4 t)
      (outsAt2 V c (t.val - 1) (Nat.lt_of_le_of_lt (Nat.sub_le _ _) t.isLt))]
  exact pay2_apply (iblk2 V c 0 t) (iblk2 V c 3 t) (iblk2 V c 1 t) (iblk2 V c 4 t) (iblk2 V c 2 t)
    (outsAt2 V c (t.val - 1) (Nat.lt_of_le_of_lt (Nat.sub_le _ _) t.isLt)) r o

/-- The output block's entry at node `r`, feature `o` after point `n`, as a sequence over the naturals. -/
def accAt (c : Dev nD) (r : Fin 2048) (o : Fin 64) (n : ℕ) : EReal :=
  if h : n < cfg2.N then at3 (outsAt2 V c n h) 0 r o else 0

/-- What point `n` adds to that entry. -/
def addAt (c : Dev nD) (r : Fin 2048) (o : Fin 64) (n : ℕ) : EReal :=
  if h : n < cfg2.N then
    term (iblk2 V c 0 ⟨n, h⟩) (iblk2 V c 3 ⟨n, h⟩) (iblk2 V c 1 ⟨n, h⟩) (iblk2 V c 4 ⟨n, h⟩) (iblk2 V c 2 ⟨n, h⟩) r o
  else 0

/-- The accumulator's law: cleared at the first point of each slab of 32, carried otherwise. -/
theorem acc_step (c : Dev nD) (r : Fin 2048) (o : Fin 64) :
    ∀ n, n < 64 → accAt V c r o n = (if n % 32 = 0 then 0 else accAt V c r o (n - 1)) + addAt V c r o n := by
  intro n hn
  have h : n < cfg2.N := lt_of_lt_of_eq hn (show cfg2.N = 64 from N_2).symm
  unfold accAt addAt
  rw [dif_pos h, dif_pos h]
  by_cases h0 : n % 32 = 0
  · rw [if_pos h0, zero_add]
    exact outs_first V c ⟨n, h⟩ h0 r o
  · rw [if_neg h0, dif_pos (Nat.lt_of_le_of_lt (Nat.sub_le _ _) h)]
    exact outs_next V c ⟨n, h⟩ h0 r o

/-- After the last point of slab `s` the entry holds the sum of the slab's 32 tile terms. -/
theorem slab_sum (c : Dev nD) (s : Fin 2) (r : Fin 2048) (o : Fin 64) (t : Fin cfg2.N) (ht : t.val = s.val * 32 + 31) :
    at3 (outsAt2 V c t.val t.isLt) 0 r o = ∑ k : Fin 32, tileTerm V c s k r o := by
  obtain ⟨tv, hlt⟩ := t
  dsimp only at ht
  subst ht
  have hs := s.isLt
  have key : accAt V c r o (s.val * 32 + 31) = ∑ k : Fin 32, addAt V c r o (s.val * 32 + k.val) :=
    Cert.BlockSums.acc_tile 32 (by decide) 64 (addAt V c r o) (accAt V c r o) (acc_step V c r o) s.val (by omega)
  have e1 : accAt V c r o (s.val * 32 + 31) = at3 (outsAt2 V c (s.val * 32 + 31) hlt) 0 r o := by
    unfold accAt; rw [dif_pos hlt]
  show at3 (outsAt2 V c (s.val * 32 + 31) hlt) 0 r o = _
  rw [← e1, key]
  refine Finset.sum_congr rfl fun k _ => ?_
  have hk : s.val * 32 + k.val < cfg2.N := by rw [show cfg2.N = 64 from N_2]; have := k.isLt; omega
  unfold addAt
  rw [dif_pos hk]
  exact term_at V c ⟨s.val * 32 + k.val, hk⟩ s k rfl r o

/-- The output array in closed form: entry `(s, n, o)` is the sum of slab `s`'s 32 tile terms at node `n`, feature `o`. -/
def result (c : Dev nD) : Buf (Elt Ideal) ((c : Thread nD τ).loc main_v13) :=
  fun i => (∑ k : Fin 32, tileTerm V c (i 0) k (i 1) (i 2) : EReal)

/-- The output block is written back after the last point of each slab, and what is written is that slab of the
    closed form: the block of point `t` is slab `t / 32`, whole in the other two axes. -/
theorem flushed_eq (c : Dev nD) (t : Fin cfg2.N) (hf : (cfg2.win 5).flush t = true) :
    (dat2 (F := Ideal) V c).flushed 5 t = ((cfg2.win 5).blk t).view.read (Elt Ideal) (result V c) := by
  have hN : cfg2.N = 64 := N_2
  have hlt := t.isLt
  have h31 : t.val % 32 = 31 := (flush2_5 t).mp hf
  show (cfg2.win 5).cut (grid2.coords t) ((dat2 (F := Ideal) V c).after 5 t) = _
  rw [after2_5]
  funext j
  obtain ⟨u, r, o, rfl⟩ : ∃ (u : Fin 1) (r : Fin 2048) (o : Fin 64), j = ix3 u r o := ⟨j 0, j 1, j 2, eq_ix3 j⟩
  obtain rfl : u = 0 := Subsingleton.elim _ _
  rw [View.read_apply]
  have hs : t.val / 32 < 2 := by omega
  have hemb : ((cfg2.win 5).blk t).view.emb (ix3 (0 : Fin 1) r o) = ix3 (⟨t.val / 32, hs⟩ : Fin 2) r o := by
    funext a; apply Fin.ext
    obtain ⟨-, -, -, -, -, -, -, -, -, -, e0, e1, e2⟩ := idx_facts t
    match a with
    | ⟨0, _⟩ => show win2_5.index t (0 : Fin 3) * 1 + 1 * 0 = t.val / 32; rw [e0]; omega
    | ⟨1, _⟩ => show win2_5.index t (1 : Fin 3) * 2048 + 1 * r.val = r.val; rw [e1]; omega
    | ⟨2, _⟩ => show win2_5.index t (2 : Fin 3) * 64 + 1 * o.val = o.val; rw [e2]; omega
  rw [hemb]
  show at3 (outsAt2 V c t.val t.isLt) 0 r o = ∑ k : Fin 32, tileTerm V c (⟨t.val / 32, hs⟩ : Fin 2) k r o
  exact slab_sum V c ⟨t.val / 32, hs⟩ r o t (by show t.val = t.val / 32 * 32 + 31; omega)

/-- Every entry of the output array lies in the block of the last point of its slab. -/
theorem cover (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 64 := N_2
  have h0 : (i 0 : Nat) < 2 := (i 0).isLt
  have h1 : (i 1 : Nat) < 2048 := (i 1).isLt
  have h2 : (i 2 : Nat) < 64 := (i 2).isLt
  obtain ⟨t, ht⟩ : ∃ t : Fin cfg2.N, t.val = (i 0 : Nat) * 32 + 31 := ⟨⟨(i 0 : Nat) * 32 + 31, by omega⟩, rfl⟩
  refine ⟨t, (flush2_5 t).mpr (by omega), ?_⟩
  show i ∈ ((View.whole main_v13).slice (win2_5.rect t)).set
  rw [View.set_slice_whole, Rect.mem_set_unit]
  intro a
  obtain ⟨-, -, -, -, -, -, -, -, -, -, e0, e1, e2⟩ := idx_facts t
  match a with
  | ⟨0, _⟩ => show win2_5.index t (0 : Fin 3) * 1 ≤ (i 0 : Nat) ∧ (i 0 : Nat) < win2_5.index t (0 : Fin 3) * 1 + 1; rw [e0]; omega
  | ⟨1, _⟩ => show win2_5.index t (1 : Fin 3) * 2048 ≤ (i 1 : Nat) ∧ (i 1 : Nat) < win2_5.index t (1 : Fin 3) * 2048 + 2048; rw [e1]; omega
  | ⟨2, _⟩ => show win2_5.index t (2 : Fin 3) * 64 ≤ (i 2 : Nat) ∧ (i 2 : Nat) < win2_5.index t (2 : Fin 3) * 64 + 64; rw [e2]; omega

/-- So the output array ends holding the closed form. -/
theorem arr_eq (c : Dev nD) : (dat2 (F := Ideal) V c).arrAt 5 cfg2.N = result V c :=
  (dat2 (F := Ideal) V c).arrAt_eq_of_cover 5 (result V c) (flushed_eq V c) (cover c)

end R2

/-- REGION 2, output window 5 (the two slabs of the output, 2 x 2048 x 64). -/
theorem final2 (c : Dev nD) (s : Fin 2) (n : Fin 2048) (o : Fin 64) :
    at3 ((dat2 (F := Ideal) V c).arrAt 5 cfg2.N) s n o
      = ∑ t : Fin 32, ∑ j : Fin 1024, at2 (V c main_v6_2) n (edge s t j)
          * (at2 (V c main_v6_0) (edge s t j) o
             * Ideal.div (Ideal.exp (at2 (V c main_v6_1) (edge s t j) 0 - at2 (V c main_v10) 0 0))
                 ((∑ n' : Fin 2048, at2 (V c main_v6_2) n' (edge s t j) * at2 (V c main_v12) n' 0) + eps)) := by
  rw [R2.arr_eq V c]
  rfl

end Cert.KernelIdeal.Val

end
-- ==== Proof.KernelValue.lean ====
/-
  The idealized kernel's result buffer holds the attention layer's output `Cert.Gat.out` of the seven argument arrays.

  The program is four stretches of host operations around three kernel regions, and the run names the buffer contents
  at each of the seven boundaries between them as a fold from the launch memory. This module reads that fold at the
  buffers that matter, boundary by boundary, over the extended reals:
    entry of region 0   the arguments as launched; the two 64-row halves of each weight array (host slices: rows k and
                        64 + k); the two biases as rows (host reshapes);
    exit of region 0    the message array `msg`, the logit column `logit`, and a copy of the target incidence array
                        (the three region-0 results, read through the entry contents);
    entry of region 1   the mean logit `mean` (a host sum from zero, divided by the count); the three arrays unchanged;
    exit of region 1    two slabs of partial per-node sums: slab s sums, over its 32 tiles of 1024 edges,
                        tgt[n,e] · pexp e;
    entry of region 2   the per-node sum `nsum` (the host adds the two slabs: with the regrouping of the 65536 edges as
                        2 slabs of 32 tiles of 1024 this is the sum over all edges); everything else unchanged — an array
                        a region only reads leaves the region as it entered;
    exit of region 2    two slabs of partial outputs: slab s sums tgt[n,e] · (msg e o · att e) over its edges, the
                        denominator inside `att` being `den` = Σₙ tgt[n,e] · nsum n;
    the result          the host adds the two slabs: `out`, by the same regrouping.
  Only commutativity and associativity of addition are used to join the kernel's slab-and-tile arrangement to one
  sum over the edges, so nothing here depends on the inputs being finite.
-/
import proofs.«104795_j36816459661559_2_alg».proof.Proof.Gen.KernelIdeal.Frame
import proofs.«104795_j36816459661559_2_alg».proof.Proof.Spec
import proofs.«104795_j36816459661559_2_alg».proof.Proof.Regroup
import proofs.«104795_j36816459661559_2_alg».proof.Proof.Region0
import proofs.«104795_j36816459661559_2_alg».proof.Proof.Region1
import proofs.«104795_j36816459661559_2_alg».proof.Proof.Region2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open Cert.Gat

variable (m : (ℓ : Loc nD τ sig) → Buf (Elt Ideal) ℓ) (ρ : Dev nD → PrngReg) (c : Dev nD)

/-! ## Moves through the fold of boundary contents -/

/-- a buffer no operation of a host stretch writes keeps its contents through the stretch -/
local macro "skip_host " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.reshape_writes, Finset.mem_singleton]
    repeat' apply And.intro
    all_goals exact StableHlo.devRef_ne_of_ne (by decide))))

local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- the seven argument arrays as launched -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)

/-! ## Region 0's entry: the arguments, the weight halves, the bias rows -/

theorem e1_arg0 : V1 (F := Ideal) m ρ c main_arg0 = X0 m c := by
  show StableHlo.after hostOps0 _ (Proc.devRef .tc main_arg0) = _
  refine Eq.trans ?_ (rfl : W0 (F := Ideal) m ρ c (Proc.devRef .tc main_arg0) = _)
  skip_host hostOps0
theorem e1_arg1 : V1 (F := Ideal) m ρ c main_arg1 = X1 m c := by
  show StableHlo.after hostOps0 _ (Proc.devRef .tc main_arg1) = _
  refine Eq.trans ?_ (rfl : W0 (F := Ideal) m ρ c (Proc.devRef .tc main_arg1) = _)
  skip_host hostOps0
theorem e1_arg2 : V1 (F := Ideal) m ρ c main_arg2 = X2 m c := by
  show StableHlo.after hostOps0 _ (Proc.devRef .tc main_arg2) = _
  refine Eq.trans ?_ (rfl : W0 (F := Ideal) m ρ c (Proc.devRef .tc main_arg2) = _)
  skip_host hostOps0

/-- the lower half of the 128 x 64 weights -/
theorem e1_v0 (k o : Fin 64) : at2 (V1 (F := Ideal) m ρ c main_v0) k o = at2 (X3 m c) (lo k) o := by
  have h : V1 (F := Ideal) m ρ c main_v0 = extractStridedSlice S64x64 ![0, 0] (X3 m c) Facts₀.slices_S128x64_S64x64_0_0 := by
    show StableHlo.after hostOps0 _ (Proc.devRef .tc main_v0) = _
    after_results
  rw [h]
  exact slice2_axis0_apply 0 (X3 m c) Facts₀.slices_S128x64_S64x64_0_0 k o (lo k) (Nat.zero_add _).symm
/-- the upper half -/
theorem e1_v1 (k o : Fin 64) : at2 (V1 (F := Ideal) m ρ c main_v1) k o = at2 (X3 m c) (hi k) o := by
  have h : V1 (F := Ideal) m ρ c main_v1 = extractStridedSlice S64x64 ![64, 0] (X3 m c) Facts₀.slices_S128x64_S64x64_64_0 := by
    show StableHlo.after hostOps0 _ (Proc.devRef .tc main_v1) = _
    after_results
  rw [h]
  exact slice2_axis0_apply 64 (X3 m c) Facts₀.slices_S128x64_S64x64_64_0 k o (hi k) rfl
theorem e1_v2 (k : Fin 64) : at2 (V1 (F := Ideal) m ρ c main_v2) k 0 = at2 (X5 m c) (lo k) 0 := by
  have h : V1 (F := Ideal) m ρ c main_v2 = extractStridedSlice S64x1 ![0, 0] (X5 m c) Facts₀.slices_S128x1_S64x1_0_0 := by
    show StableHlo.after hostOps0 _ (Proc.devRef .tc main_v2) = _
    after_results
  rw [h]
  exact slice2_axis0_apply 0 (X5 m c) Facts₀.slices_S128x1_S64x1_0_0 k 0 (lo k) (Nat.zero_add _).symm
theorem e1_v3 (k : Fin 64) : at2 (V1 (F := Ideal) m ρ c main_v3) k 0 = at2 (X5 m c) (hi k) 0 := by
  have h : V1 (F := Ideal) m ρ c main_v3 = extractStridedSlice S64x1 ![64, 0] (X5 m c) Facts₀.slices_S128x1_S64x1_64_0 := by
    show StableHlo.after hostOps0 _ (Proc.devRef .tc main_v3) = _
    after_results
  rw [h]
  exact slice2_axis0_apply 64 (X5 m c) Facts₀.slices_S128x1_S64x1_64_0 k 0 (hi k) rfl
/-- the two biases as rows -/
theorem e1_v4 (o : Fin 64) : at2 (V1 (F := Ideal) m ρ c main_v4) 0 o = (X4 m c) (ix1 o) := by
  have h : V1 (F := Ideal) m ρ c main_v4 = shapeCast S1x64 (X4 m c) Facts₀.shapeCasts_S64_S1x64 := by
    show StableHlo.after hostOps0 _ (Proc.devRef .tc main_v4) = _
    after_results
    rfl
  rw [h]
  exact shapeCast_a_1a_apply (X4 m c) Facts₀.shapeCasts_S64_S1x64 0 o
theorem e1_v5 : at2 (V1 (F := Ideal) m ρ c main_v5) 0 0 = (X6 m c) (ix1 0) := by
  have h : V1 (F := Ideal) m ρ c main_v5 = shapeCast S1x1 (X6 m c) Facts₀.shapeCasts_S1_S1x1 := by
    show StableHlo.after hostOps0 _ (Proc.devRef .tc main_v5) = _
    after_results
    rfl
  rw [h]
  exact shapeCast_a_1a_apply (X6 m c) Facts₀.shapeCasts_S1_S1x1 0 0

/-! ## Region 0's exit: the messages, the logits, the copy of the target incidence array -/

theorem x2_y (e : Fin 65536) (o : Fin 64) :
    at2 (W2 (F := Ideal) m ρ c (Proc.devRef .tc main_v6_0)) e o = msg (X0 m c) (X1 m c) (X2 m c) (X3 m c) (X4 m c) e o := by
  have h : W2 (F := Ideal) m ρ c (Proc.devRef .tc main_v6_0) = (dat0 (F := Ideal) (V1 m ρ) c).arrAt 9 cfg0.N := W2_arr m ρ c 9
  rw [h, final0_y, e1_arg0, e1_arg1, e1_arg2, e1_v4]
  unfold msg
  refine congrArg (fun z => max z 0) (congrArg₂ (· + ·) (congrArg₂ (· + ·) ?_ ?_) rfl)
  · exact Finset.sum_congr rfl fun k _ => by rw [e1_v0]
  · exact Finset.sum_congr rfl fun k _ => by rw [e1_v1]
theorem x2_a (e : Fin 65536) :
    at2 (W2 (F := Ideal) m ρ c (Proc.devRef .tc main_v6_1)) e 0 = logit (X0 m c) (X1 m c) (X2 m c) (X5 m c) (X6 m c) e := by
  have h : W2 (F := Ideal) m ρ c (Proc.devRef .tc main_v6_1) = (dat0 (F := Ideal) (V1 m ρ) c).arrAt 10 cfg0.N := W2_arr m ρ c 10
  rw [h, final0_a, e1_arg0, e1_arg1, e1_arg2, e1_v5]
  unfold logit
  refine congrArg₂ (· + ·) (congrArg₂ (· + ·) ?_ ?_) rfl
  · exact Finset.sum_congr rfl fun k _ => by rw [e1_v2]
  · exact Finset.sum_congr rfl fun k _ => by rw [e1_v3]
theorem x2_t (n : Fin 2048) (e : Fin 65536) :
    at2 (W2 (F := Ideal) m ρ c (Proc.devRef .tc main_v6_2)) n e = at2 (X2 m c) n e := by
  have h : W2 (F := Ideal) m ρ c (Proc.devRef .tc main_v6_2) = (dat0 (F := Ideal) (V1 m ρ) c).arrAt 11 cfg0.N := W2_arr m ρ c 11
  rw [h, final0_t, e1_arg2]

/-! ## Region 1's entry: the mean logit; the three arrays pass the host stretch unchanged -/

theorem e3_y : V3 (F := Ideal) m ρ c main_v6_0 = W2 (F := Ideal) m ρ c (Proc.devRef .tc main_v6_0) := by
  show StableHlo.after hostOps1 _ (Proc.devRef .tc main_v6_0) = _
  skip_host hostOps1
theorem e3_a : V3 (F := Ideal) m ρ c main_v6_1 = W2 (F := Ideal) m ρ c (Proc.devRef .tc main_v6_1) := by
  show StableHlo.after hostOps1 _ (Proc.devRef .tc main_v6_1) = _
  skip_host hostOps1
theorem e3_t : V3 (F := Ideal) m ρ c main_v6_2 = W2 (F := Ideal) m ρ c (Proc.devRef .tc main_v6_2) := by
  show StableHlo.after hostOps1 _ (Proc.devRef .tc main_v6_2) = _
  skip_host hostOps1

/-- the mean of a column of 65536 entries, as the host computes it: the sum from zero, as a 1 x 1 array, over the count -/
theorem mean_of (y : (⟨S65536x1, .f32⟩ : BufTy).Contents (Elt Ideal)) :
    (Host.divf (F := Ideal) (broadcastInDim S1x1 ![1] Facts₀.bcast_S1_S1x1_1
        (Host.reduceAdd (F := Ideal) y (constant (F := Ideal) S_ .f32 0x00000000#32) Facts₀.reducesTo_S65536x1_S1_d0 Facts₀.h_S_))
      (broadcastInDim (s := S_) S1x1 (![] : Fin 0 → Fin S1x1.rank) Facts₀.bcast_S_S1x1 (constant (F := Ideal) S_ .f32 0x47800000#32))) (ix2 0 0)
      = Ideal.div (∑ e : Fin 65536, y (ix2 e 0)) cnt := by
  have hdiv : ∀ (A B : S1x1.Idx → EReal) (i : S1x1.Idx), Host.divf (F := Ideal) (φ := .f32) A B i = Ideal.div (A i) (B i) :=
    fun _ _ _ => rfl
  rw [hdiv, broadcastInDim_apply _ Facts₀.bcast_S1_S1x1_1 _ (ix2 0 0) (ix1 0) (fun a => match a with
      | ⟨0, _⟩ => by show 0 = if (1 : Nat) = 1 then 0 else _; rw [if_pos rfl]),
    broadcastInDim_apply _ Facts₀.bcast_S_S1x1 _ (ix2 0 0) ix0 (fun a => a.elim0)]
  simp only [Host.reduceAdd, Ideal.hostReduceAdd_def]
  rw [Ideal.hostReduceAdd_single Facts₀.reducesTo_S65536x1_S1_d0 (by decide)]
  rw [show (constant (F := Ideal) S_ .f32 0x00000000#32) (Shape.Idx.first Facts₀.h_S_) = 0 from Ideal.ofBits_zero_f32, zero_add]
  exact congrArg (fun z => Ideal.div z cnt) (Finset.sum_congr rfl fun e _ => congrArg y (by idx2))

theorem e3_mean : at2 (V3 (F := Ideal) m ρ c main_v10) 0 0 = mean (X0 m c) (X1 m c) (X2 m c) (X5 m c) (X6 m c) := by
  have h : V3 (F := Ideal) m ρ c main_v10
      = Host.divf (F := Ideal) (broadcastInDim S1x1 ![1] Facts₀.bcast_S1_S1x1_1
          (Host.reduceAdd (F := Ideal) (W2 (F := Ideal) m ρ c (Proc.devRef .tc main_v6_1)) (constant (F := Ideal) S_ .f32 0x00000000#32)
            Facts₀.reducesTo_S65536x1_S1_d0 Facts₀.h_S_))
          (broadcastInDim (s := S_) S1x1 (![] : Fin 0 → Fin S1x1.rank) Facts₀.bcast_S_S1x1 (constant (F := Ideal) S_ .f32 0x47800000#32)) := by
    show StableHlo.after hostOps1 _ (Proc.devRef .tc main_v10) = _
    after_results
  rw [h]
  exact (mean_of _).trans (congrArg (fun z => Ideal.div z cnt) (Finset.sum_congr rfl fun e _ => x2_a m ρ c e))

/-! ## Region 1's exit: the two slabs of per-node sums -/

theorem x4_s (s : Fin 2) (n : Fin 2048) :
    at3 (W4 (F := Ideal) m ρ c (Proc.devRef .tc main_v11)) s n 0
      = ∑ t : Fin 32, ∑ j : Fin 1024, at2 (X2 m c) n (edge s t j) * pexp (X0 m c) (X1 m c) (X2 m c) (X5 m c) (X6 m c) (edge s t j) := by
  have h : W4 (F := Ideal) m ρ c (Proc.devRef .tc main_v11) = (dat1 (F := Ideal) (V3 m ρ) c).arrAt 3 cfg1.N := W4_arr m ρ c 3
  rw [h, final1, e3_t, e3_a, e3_mean]
  refine Finset.sum_congr rfl fun t _ => Finset.sum_congr rfl fun j _ => ?_
  rw [x2_t, x2_a]
  rfl

/-- an array region 1 only reads leaves the region as it entered -/
theorem x4_t : W4 (F := Ideal) m ρ c (Proc.devRef .tc main_v6_2) = W2 (F := Ideal) m ρ c (Proc.devRef .tc main_v6_2) :=
  (W4_arr m ρ c 0).trans ((((dat1 (F := Ideal) (V3 m ρ) c).arrAt_in 0 rfl _).trans (A_eq1 (V3 m ρ) c 0)).trans (e3_t m ρ c))
theorem x4_a : W4 (F := Ideal) m ρ c (Proc.devRef .tc main_v6_1) = W2 (F := Ideal) m ρ c (Proc.devRef .tc main_v6_1) :=
  (W4_arr m ρ c 1).trans ((((dat1 (F := Ideal) (V3 m ρ) c).arrAt_in 1 rfl _).trans (A_eq1 (V3 m ρ) c 1)).trans (e3_a m ρ c))
theorem x4_mean : W4 (F := Ideal) m ρ c (Proc.devRef .tc main_v10) = V3 (F := Ideal) m ρ c main_v10 :=
  (W4_arr m ρ c 2).trans (((dat1 (F := Ideal) (V3 m ρ) c).arrAt_in 2 rfl _).trans (A_eq1 (V3 m ρ) c 2))
theorem x4_y : W4 (F := Ideal) m ρ c (Proc.devRef .tc main_v6_0) = W2 (F := Ideal) m ρ c (Proc.devRef .tc main_v6_0) :=
  (W4_of_ne m ρ c main_v6_0 (by decide)).trans (e3_y m ρ c)

/-! ## Region 2's entry: the per-node sum; the other arrays pass the host stretch unchanged -/

theorem e5_y : V5 (F := Ideal) m ρ c main_v6_0 = W2 (F := Ideal) m ρ c (Proc.devRef .tc main_v6_0) := by
  refine Eq.trans ?_ (x4_y m ρ c)
  show StableHlo.after hostOps2 _ (Proc.devRef .tc main_v6_0) = _
  skip_host hostOps2
theorem e5_a : V5 (F := Ideal) m ρ c main_v6_1 = W2 (F := Ideal) m ρ c (Proc.devRef .tc main_v6_1) := by
  refine Eq.trans ?_ (x4_a m ρ c)
  show StableHlo.after hostOps2 _ (Proc.devRef .tc main_v6_1) = _
  skip_host hostOps2
theorem e5_t : V5 (F := Ideal) m ρ c main_v6_2 = W2 (F := Ideal) m ρ c (Proc.devRef .tc main_v6_2) := by
  refine Eq.trans ?_ (x4_t m ρ c)
  show StableHlo.after hostOps2 _ (Proc.devRef .tc main_v6_2) = _
  skip_host hostOps2
theorem e5_mean : V5 (F := Ideal) m ρ c main_v10 = V3 (F := Ideal) m ρ c main_v10 := by
  refine Eq.trans ?_ (x4_mean m ρ c)
  show StableHlo.after hostOps2 _ (Proc.devRef .tc main_v10) = _
  skip_host hostOps2

theorem e5_nsum (n : Fin 2048) :
    at2 (V5 (F := Ideal) m ρ c main_v12) n 0 = nsum (X0 m c) (X1 m c) (X2 m c) (X5 m c) (X6 m c) n := by
  have h : V5 (F := Ideal) m ρ c main_v12
      = Host.reduceAdd (F := Ideal) (W4 (F := Ideal) m ρ c (Proc.devRef .tc main_v11)) (constant (F := Ideal) S_ .f32 0x00000000#32)
          Facts₀.reducesTo_S2x2048x1_S2048x1_d0 Facts₀.h_S_ := by
    show StableHlo.after hostOps2 _ (Proc.devRef .tc main_v12) = _
    after_results
  rw [h]
  show Ideal.hostReduceAdd _ _ _ (ix2 n 0) = _
  rw [Ideal.hostReduceAdd_single Facts₀.reducesTo_S2x2048x1_S2048x1_d0 (by decide)]
  rw [show (constant (F := Ideal) S_ .f32 0x00000000#32) (Shape.Idx.first Facts₀.h_S_) = 0 from Ideal.ofBits_zero_f32, zero_add]
  unfold nsum
  rw [sum_edges]
  refine Finset.sum_congr rfl fun s _ => ?_
  exact (congrArg _ (by idx3)).trans (x4_s m ρ c s n)

/-! ## Region 2's exit and the result -/

theorem x6_o (s : Fin 2) (n : Fin 2048) (o : Fin 64) :
    at3 (W6 (F := Ideal) m ρ c (Proc.devRef .tc main_v13)) s n o
      = ∑ t : Fin 32, ∑ j : Fin 1024, at2 (X2 m c) n (edge s t j)
          * (msg (X0 m c) (X1 m c) (X2 m c) (X3 m c) (X4 m c) (edge s t j) o * att (X0 m c) (X1 m c) (X2 m c) (X5 m c) (X6 m c) (edge s t j)) := by
  have h : W6 (F := Ideal) m ρ c (Proc.devRef .tc main_v13) = (dat2 (F := Ideal) (V5 m ρ) c).arrAt 5 cfg2.N := W6_arr m ρ c 5
  rw [h, final2, e5_t, e5_a, e5_y, e5_mean, e3_mean]
  refine Finset.sum_congr rfl fun t _ => Finset.sum_congr rfl fun j _ => ?_
  have hd : (∑ n' : Fin 2048, at2 (W2 (F := Ideal) m ρ c (Proc.devRef .tc main_v6_2)) n' (edge s t j) * at2 (V5 (F := Ideal) m ρ c main_v12) n' 0)
      = den (X0 m c) (X1 m c) (X2 m c) (X5 m c) (X6 m c) (edge s t j) := by
    unfold den
    exact Finset.sum_congr rfl fun n' _ => by rw [x2_t, e5_nsum]
  rw [hd, x2_t, x2_a, x2_y]
  rfl

/-- THE KERNEL'S RESULT: the last boundary's contents of the result buffer are the specification. -/
theorem result_at (n : Fin 2048) (o : Fin 64) :
    at2 (W7 (F := Ideal) m ρ c (Proc.devRef .tc main_v14)) n o
      = out (X0 m c) (X1 m c) (X2 m c) (X3 m c) (X4 m c) (X5 m c) (X6 m c) n o := by
  have h : W7 (F := Ideal) m ρ c (Proc.devRef .tc main_v14)
      = Host.reduceAdd (F := Ideal) (W6 (F := Ideal) m ρ c (Proc.devRef .tc main_v13)) (constant (F := Ideal) S_ .f32 0x00000000#32)
          Facts₀.reducesTo_S2x2048x64_S2048x64_d0 Facts₀.h_S_ := by
    show StableHlo.after hostOps3 _ (Proc.devRef .tc main_v14) = _
    after_results
  rw [h]
  show Ideal.hostReduceAdd _ _ _ (ix2 n o) = _
  rw [Ideal.hostReduceAdd_single Facts₀.reducesTo_S2x2048x64_S2048x64_d0 (by decide)]
  rw [show (constant (F := Ideal) S_ .f32 0x00000000#32) (Shape.Idx.first Facts₀.h_S_) = 0 from Ideal.ofBits_zero_f32, zero_add]
  unfold out
  rw [sum_edges]
  refine Finset.sum_congr rfl fun s _ => ?_
  exact (congrArg _ (by idx3)).trans (x6_o m ρ c s n o)

end Cert.KernelIdeal.Val

end
-- ==== Proof.lean ====
/-
  The certificate of a graph-attention layer computed by three kernel regions against its plain reference, over the
  extended reals.

  Both programs compute, from node features x, two node-by-edge incidence arrays src and tgt, and the weights and biases
  (W_f, b_f), (W_w, b_w):
      every edge gathers its source and target node features; a message msg = max(h·W_f + b_f, 0) and a logit
      a = h·W_w + b_w of the concatenated features h; the logits are centred at their mean and exponentiated; each node
      sums the exponentials of its incoming edges; each edge takes that sum back, adds ε, and divides; the output is,
      per node, the sum over its incoming edges of message times attention weight.
  The reference does this with whole-array host operations. The kernel splits the 128-row weights into two 64-row
  halves (a sum over 128 columns as two half sums), computes messages and logits tile by tile over the edges, and forms
  both per-node sums as accumulations over 2 slabs of 32 tiles of 1024 edges, adding the two slabs on the host (a sum
  over 65536 edges as a sum over slabs, tiles and lanes). Changes of float format are the identity over the extended
  reals, the same literals (zero, the edge count, ε) stand on both sides, and the two regroupings use only that
  addition is commutative and associative — true on the extended reals with the infinities — so the precondition is
  not needed for the value.

  `Cert.Gat.out` (Proof/Spec.lean) is the layer as one function of the arguments. The kernel's result buffer holds it
  (Proof/KernelValue.lean, over the three regions' results: Proof/Region0.lean, Region1.lean, Region2.lean, and the run
  with its result named: Proof/RunResult.lean); the reference's result is it (Proof/RefValue.lean, over the
  reference's run read one operation at a time). The three frames are the programs' runs with the results dropped;
  the idealization rewrote nothing, so it preserves the kernel trivially.
-/
import proofs.«104795_j36816459661559_2_alg».proof.Defs
import proofs.«104795_j36816459661559_2_alg».proof.Proof.Gen.Kernel
import proofs.«104795_j36816459661559_2_alg».proof.Proof.Gen.Kernel.Skeleton
import proofs.«104795_j36816459661559_2_alg».proof.Proof.Gen.Kernel.Launch
import proofs.«104795_j36816459661559_2_alg».proof.Proof.Gen.Kernel.Points
import proofs.«104795_j36816459661559_2_alg».proof.Proof.Gen.Kernel.Frame
import proofs.«104795_j36816459661559_2_alg».proof.Proof.Gen.KernelIdeal
import proofs.«104795_j36816459661559_2_alg».proof.Proof.Gen.KernelIdeal.Skeleton
import proofs.«104795_j36816459661559_2_alg».proof.Proof.Gen.KernelIdeal.Launch
import proofs.«104795_j36816459661559_2_alg».proof.Proof.Gen.KernelIdeal.Points
import proofs.«104795_j36816459661559_2_alg».proof.Proof.Gen.KernelIdeal.Frame
import proofs.«104795_j36816459661559_2_alg».proof.Proof.Gen.ReferenceIdeal
import proofs.«104795_j36816459661559_2_alg».proof.Proof.Gen.Pre_finite_inputs
import proofs.«104795_j36816459661559_2_alg».proof.Proof.Gen.ReferenceIdeal.Run
import proofs.«104795_j36816459661559_2_alg».proof.Proof.Gen.ReferenceIdeal.Read
import proofs.«104795_j36816459661559_2_alg».proof.Proof.RunResult
import proofs.«104795_j36816459661559_2_alg».proof.Proof.RefValue
import proofs.«104795_j36816459661559_2_alg».proof.Proof.KernelValue
import Idealize.ShloMosaic.Adequacy
import Idealize.ShloMosaic.Init

noncomputable section

/-! ## The claims -/

namespace Cert.Proof.GatClaims

open Idealize.ShloMosaic Idealize.ShloMosaic.ValueIdx Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over the extended reals. -/
theorem preserves : Cert.preserves_Kernel_KernelIdeal := trivial

/-- Over the extended reals both programs end with the attention layer's output `Cert.Gat.out` of arguments that
    agree: the kernel's result buffer at the last boundary's contents, which are that function
    (`Cert.KernelIdeal.Val.result_at`), and the reference's at its composed stages, which are that function too
    (`Cert.ReferenceIdeal.RefValue.out_eq`). -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v14),
    Cert.KernelIdeal.Val.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq]
  funext i
  obtain ⟨n, o, rfl⟩ : ∃ (n : Fin 2048) (o : Fin 64), i = ix2 n o := ⟨i 0, i 1, eq_ix2 i⟩
  rw [Cert.ReferenceIdeal.RefValue.out_eq, (hagree c).1, (hagree c).2.1, (hagree c).2.2.1, (hagree c).2.2.2.1,
    (hagree c).2.2.2.2.1, (hagree c).2.2.2.2.2.1, (hagree c).2.2.2.2.2.2]
  exact (Cert.KernelIdeal.Val.result_at m ρ c n o).symm

end Cert.Proof.GatClaims

namespace Cert.Proof

theorem claim : Cert.Claim := ⟨Cert.Kernel.Gen.facts, Cert.KernelIdeal.Gen.facts, Cert.ReferenceIdeal.Gen.facts, Cert.Pre_finite_inputs.Gen.facts,
  Cert.Proof.GatClaims.frame_k, Cert.Proof.GatClaims.frame_ki, Cert.Proof.GatClaims.frame_ri,
  Cert.Proof.GatClaims.preserves, Cert.Proof.GatClaims.algebraic⟩

end Cert.Proof

end
